-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16384x32x32 : Shape := ⟨4, ![2, 16384, 32, 32]⟩
abbrev S2x4096x64x64 : Shape := ⟨4, ![2, 4096, 64, 64]⟩
abbrev S2x256x128x128 : Shape := ⟨4, ![2, 256, 128, 128]⟩
abbrev S2x1x256x256 : Shape := ⟨4, ![2, 1, 256, 256]⟩
abbrev S2x32768x16x16 : Shape := ⟨4, ![2, 32768, 16, 16]⟩
abbrev S_ : Shape := ⟨0, ![]⟩

class Facts : Prop where
  bcast_S_S2x16384x32x32 : S_.BroadcastsInDim S2x16384x32x32 (![] : Fin 0 → Fin S2x16384x32x32.rank)
  reducesTo_S2x16384x32x32_S_d0_1_2_3 : S2x16384x32x32.ReducesTo [0, 1, 2, 3] S_
  h_S_ : 0 < S_.numel
  bcast_S_S2x4096x64x64 : S_.BroadcastsInDim S2x4096x64x64 (![] : Fin 0 → Fin S2x4096x64x64.rank)
  reducesTo_S2x4096x64x64_S_d0_1_2_3 : S2x4096x64x64.ReducesTo [0, 1, 2, 3] S_
  bcast_S_S2x256x128x128 : S_.BroadcastsInDim S2x256x128x128 (![] : Fin 0 → Fin S2x256x128x128.rank)
  reducesTo_S2x256x128x128_S_d0_1_2_3 : S2x256x128x128.ReducesTo [0, 1, 2, 3] S_
  bcast_S_S2x1x256x256 : S_.BroadcastsInDim S2x1x256x256 (![] : Fin 0 → Fin S2x1x256x256.rank)
  reducesTo_S2x1x256x256_S_d0_1_2_3 : S2x1x256x256.ReducesTo [0, 1, 2, 3] S_
  bcast_S_S2x32768x16x16 : S_.BroadcastsInDim S2x32768x16x16 (![] : Fin 0 → Fin S2x32768x16x16.rank)
  reducesTo_S2x32768x16x16_S_d0_1_2_3 : S2x32768x16x16.ReducesTo [0, 1, 2, 3] S_

variable [Facts]

def fn_part1 {F : FTy → Type} [FloatOps F] (main_arg4 : FVec F S2x32768x16x16 .f32) (main_v13 : IVec S_ 1) (main_v16 : IVec S2x1x256x256 1) : IVec S_ 1 :=
  let main_c_5 : IVec S_ 1 := constantI S_ 1 1#1
  let main_v17 : IVec S_ 1 := (fun x v => Host.reduce IntOp.andi x v reducesTo_S2x1x256x256_S_d0_1_2_3 h_S_) main_v16 main_c_5
  let main_v18 : IVec S_ 1 := andi main_v13 main_v17
  let main_v19 : FVec F S2x32768x16x16 .f32 := Host.absf main_arg4
  let main_cst_6 : FVec F S_ .f32 := constant S_ .f32 0x7F800000#32
  let main_v20 : FVec F S2x32768x16x16 .f32 := broadcastInDim S2x32768x16x16 ![] bcast_S_S2x32768x16x16 main_cst_6
  let main_v21 : IVec S2x32768x16x16 1 := cmpf .olt main_v19 main_v20
  let main_c_7 : IVec S_ 1 := constantI S_ 1 1#1
  let main_v22 : IVec S_ 1 := (fun x v => Host.reduce IntOp.andi x v reducesTo_S2x32768x16x16_S_d0_1_2_3 h_S_) main_v21 main_c_7
  let main_v23 : IVec S_ 1 := andi main_v18 main_v22
  main_v23

def fn {F : FTy → Type} [FloatOps F] (main_arg0 : FVec F S2x16384x32x32 .f32) (main_arg1 : FVec F S2x4096x64x64 .f32) (main_arg2 : FVec F S2x256x128x128 .f32) (main_arg3 : FVec F S2x1x256x256 .f32) (main_arg4 : FVec F S2x32768x16x16 .f32) : IVec S_ 1 :=
  let main_v0 : FVec F S2x16384x32x32 .f32 := Host.absf main_arg0
  let main_cst : FVec F S_ .f32 := constant S_ .f32 0x7F800000#32
  let main_v1 : FVec F S2x16384x32x32 .f32 := broadcastInDim S2x16384x32x32 ![] bcast_S_S2x16384x32x32 main_cst
  let main_v2 : IVec S2x16384x32x32 1 := cmpf .olt main_v0 main_v1
  let main_c : IVec S_ 1 := constantI S_ 1 1#1
  let main_v3 : IVec S_ 1 := (fun x v => Host.reduce IntOp.andi x v reducesTo_S2x16384x32x32_S_d0_1_2_3 h_S_) main_v2 main_c
  let main_v4 : FVec F S2x4096x64x64 .f32 := Host.absf main_arg1
  let main_cst_0 : FVec F S_ .f32 := constant S_ .f32 0x7F800000#32
  let main_v5 : FVec F S2x4096x64x64 .f32 := broadcastInDim S2x4096x64x64 ![] bcast_S_S2x4096x64x64 main_cst_0
  let main_v6 : IVec S2x4096x64x64 1 := cmpf .olt main_v4 main_v5
  let main_c_1 : IVec S_ 1 := constantI S_ 1 1#1
  let main_v7 : IVec S_ 1 := (fun x v => Host.reduce IntOp.andi x v reducesTo_S2x4096x64x64_S_d0_1_2_3 h_S_) main_v6 main_c_1
  let main_v8 : IVec S_ 1 := andi main_v3 main_v7
  let main_v9 : FVec F S2x256x128x128 .f32 := Host.absf main_arg2
  let main_cst_2 : FVec F S_ .f32 := constant S_ .f32 0x7F800000#32
  let main_v10 : FVec F S2x256x128x128 .f32 := broadcastInDim S2x256x128x128 ![] bcast_S_S2x256x128x128 main_cst_2
  let main_v11 : IVec S2x256x128x128 1 := cmpf .olt main_v9 main_v10
  let main_c_3 : IVec S_ 1 := constantI S_ 1 1#1
  let main_v12 : IVec S_ 1 := (fun x v => Host.reduce IntOp.andi x v reducesTo_S2x256x128x128_S_d0_1_2_3 h_S_) main_v11 main_c_3
  let main_v13 : IVec S_ 1 := andi main_v8 main_v12
  let main_v14 : FVec F S2x1x256x256 .f32 := Host.absf main_arg3
  let main_cst_4 : FVec F S_ .f32 := constant S_ .f32 0x7F800000#32
  let main_v15 : FVec F S2x1x256x256 .f32 := broadcastInDim S2x1x256x256 ![] bcast_S_S2x1x256x256 main_cst_4
  let main_v16 : IVec S2x1x256x256 1 := cmpf .olt main_v14 main_v15
  fn_part1 (F := F) main_arg4 main_v13 main_v16
-- ==== Kernel.lean ====
abbrev S2x16384x32x32 : Shape := ⟨4, ![2, 16384, 32, 32]⟩
abbrev S2x4096x64x64 : Shape := ⟨4, ![2, 4096, 64, 64]⟩
abbrev S2x256x128x128 : Shape := ⟨4, ![2, 256, 128, 128]⟩
abbrev S2x1x256x256 : Shape := ⟨4, ![2, 1, 256, 256]⟩
abbrev S2x32768x16x16 : Shape := ⟨4, ![2, 32768, 16, 16]⟩
abbrev S2x16384x16x16 : Shape := ⟨4, ![2, 16384, 16, 16]⟩
abbrev S1x1024x32x32 : Shape := ⟨4, ![1, 1024, 32, 32]⟩
abbrev S1x1024x16x16 : Shape := ⟨4, ![1, 1024, 16, 16]⟩
abbrev S1024x32x32 : Shape := ⟨3, ![1024, 32, 32]⟩
abbrev S1024x32x16x2 : Shape := ⟨4, ![1024, 32, 16, 2]⟩
abbrev S1024x32x16 : Shape := ⟨3, ![1024, 32, 16]⟩
abbrev S1024x16x2x16 : Shape := ⟨4, ![1024, 16, 2, 16]⟩
abbrev S1024x16x16 : Shape := ⟨3, ![1024, 16, 16]⟩
abbrev S2x4096x16x16 : Shape := ⟨4, ![2, 4096, 16, 16]⟩
abbrev S1x256x64x64 : Shape := ⟨4, ![1, 256, 64, 64]⟩
abbrev S1x256x16x16 : Shape := ⟨4, ![1, 256, 16, 16]⟩
abbrev S256x64x64 : Shape := ⟨3, ![256, 64, 64]⟩
abbrev S256x64x16x4 : Shape := ⟨4, ![256, 64, 16, 4]⟩
abbrev S256x64x16 : Shape := ⟨3, ![256, 64, 16]⟩
abbrev S256x16x4x16 : Shape := ⟨4, ![256, 16, 4, 16]⟩
abbrev S256x16x16 : Shape := ⟨3, ![256, 16, 16]⟩
abbrev S2x256x16x16 : Shape := ⟨4, ![2, 256, 16, 16]⟩
abbrev S1x64x128x128 : Shape := ⟨4, ![1, 64, 128, 128]⟩
abbrev S1x64x16x16 : Shape := ⟨4, ![1, 64, 16, 16]⟩
abbrev S64x128x128 : Shape := ⟨3, ![64, 128, 128]⟩
abbrev S64x128x16x8 : Shape := ⟨4, ![64, 128, 16, 8]⟩
abbrev S64x128x16 : Shape := ⟨3, ![64, 128, 16]⟩
abbrev S64x16x8x16 : Shape := ⟨4, ![64, 16, 8, 16]⟩
abbrev S64x16x16 : Shape := ⟨3, ![64, 16, 16]⟩
abbrev S2x1x16x16 : Shape := ⟨4, ![2, 1, 16, 16]⟩
abbrev S1x1x256x256 : Shape := ⟨4, ![1, 1, 256, 256]⟩
abbrev S1x1x16x16 : Shape := ⟨4, ![1, 1, 16, 16]⟩
abbrev S1x256x256 : Shape := ⟨3, ![1, 256, 256]⟩
abbrev S1x256x16 : Shape := ⟨3, ![1, 256, 16]⟩
abbrev S1x16x16x16 : Shape := ⟨4, ![1, 16, 16, 16]⟩
abbrev S1x16x16 : Shape := ⟨3, ![1, 16, 16]⟩

abbrev nBuf : Space → Nat
  | .hbm => 10
  | .vmem => 28
  | .smem => 0
  | _ => 0

abbrev bufTy : (tb : Table) → Fin (tcTables nBuf tb) → BufTy
  | .hbm, ⟨0, _⟩ => ⟨S2x16384x32x32, .f32⟩
  | .hbm, ⟨1, _⟩ => ⟨S2x4096x64x64, .f32⟩
  | .hbm, ⟨2, _⟩ => ⟨S2x256x128x128, .f32⟩
  | .hbm, ⟨3, _⟩ => ⟨S2x1x256x256, .f32⟩
  | .hbm, ⟨4, _⟩ => ⟨S2x32768x16x16, .f32⟩
  | .hbm, ⟨5, _⟩ => ⟨S2x16384x16x16, .f32⟩
  | .hbm, ⟨6, _⟩ => ⟨S2x4096x16x16, .f32⟩
  | .hbm, ⟨7, _⟩ => ⟨S2x256x16x16, .f32⟩
  | .hbm, ⟨8, _⟩ => ⟨S2x1x16x16, .f32⟩
  | .hbm, ⟨9, _⟩ => ⟨S2x32768x16x16, .f32⟩
  | .local _ .vmem, ⟨0, _⟩ => ⟨S1x1024x32x32, .f32⟩
  | .local _ .vmem, ⟨1, _⟩ => ⟨S1x1024x32x32, .f32⟩
  | .local _ .vmem, ⟨2, _⟩ => ⟨S1x1024x16x16, .f32⟩
  | .local _ .vmem, ⟨3, _⟩ => ⟨S1x1024x16x16, .f32⟩
  | .local _ .vmem, ⟨4, _⟩ => ⟨S1x256x64x64, .f32⟩
  | .local _ .vmem, ⟨5, _⟩ => ⟨S1x256x64x64, .f32⟩
  | .local _ .vmem, ⟨6, _⟩ => ⟨S1x256x16x16, .f32⟩
  | .local _ .vmem, ⟨7, _⟩ => ⟨S1x256x16x16, .f32⟩
  | .local _ .vmem, ⟨8, _⟩ => ⟨S1x64x128x128, .f32⟩
  | .local _ .vmem, ⟨9, _⟩ => ⟨S1x64x128x128, .f32⟩
  | .local _ .vmem, ⟨10, _⟩ => ⟨S1x64x16x16, .f32⟩
  | .local _ .vmem, ⟨11, _⟩ => ⟨S1x64x16x16, .f32⟩
  | .local _ .vmem, ⟨12, _⟩ => ⟨S1x1x256x256, .f32⟩
  | .local _ .vmem, ⟨13, _⟩ => ⟨S1x1x256x256, .f32⟩
  | .local _ .vmem, ⟨14, _⟩ => ⟨S1x1x16x16, .f32⟩
  | .local _ .vmem, ⟨15, _⟩ => ⟨S1x1x16x16, .f32⟩
  | .local _ .vmem, ⟨16, _⟩ => ⟨S1x1024x16x16, .f32⟩
  | .local _ .vmem, ⟨17, _⟩ => ⟨S1x1024x16x16, .f32⟩
  | .local _ .vmem, ⟨18, _⟩ => ⟨S1x1024x16x16, .f32⟩
  | .local _ .vmem, ⟨19, _⟩ => ⟨S1x1024x16x16, .f32⟩
  | .local _ .vmem, ⟨20, _⟩ => ⟨S1x256x16x16, .f32⟩
  | .local _ .vmem, ⟨21, _⟩ => ⟨S1x256x16x16, .f32⟩
  | .local _ .vmem, ⟨22, _⟩ => ⟨S1x1x16x16, .f32⟩
  | .local _ .vmem, ⟨23, _⟩ => ⟨S1x1x16x16, .f32⟩
  | .local _ .vmem, ⟨24, _⟩ => ⟨S1x1024x16x16, .f32⟩
  | .local _ .vmem, ⟨25, _⟩ => ⟨S1x1024x16x16, .f32⟩
  | .local _ .vmem, ⟨26, _⟩ => ⟨S1x1024x16x16, .f32⟩
  | .local _ .vmem, ⟨27, _⟩ => ⟨S1x1024x16x16, .f32⟩
  | _, _ => ⟨S2x16384x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc4_stg2_0 : Ref sig .tc := ⟨.vmem, 20, rfl⟩
abbrev cc4_stg2_1 : Ref sig .tc := ⟨.vmem, 21, rfl⟩
abbrev cc4_stg3_0 : Ref sig .tc := ⟨.vmem, 22, rfl⟩
abbrev cc4_stg3_1 : Ref sig .tc := ⟨.vmem, 23, rfl⟩
abbrev cc4_stg4_0 : Ref sig .tc := ⟨.vmem, 24, rfl⟩
abbrev cc4_stg4_1 : Ref sig .tc := ⟨.vmem, 25, rfl⟩
abbrev cc4_stg5_0 : Ref sig .tc := ⟨.vmem, 26, rfl⟩
abbrev cc4_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem1_1 : DmaSem sig := 19
abbrev cc4_sem2_0 : DmaSem sig := 20
abbrev cc4_sem2_1 : DmaSem sig := 21
abbrev cc4_sem3_0 : DmaSem sig := 22
abbrev cc4_sem3_1 : DmaSem sig := 23
abbrev cc4_sem4_0 : DmaSem sig := 24
abbrev cc4_sem4_1 : DmaSem sig := 25
abbrev cc4_sem5_0 : DmaSem sig := 26
abbrev cc4_sem5_1 : DmaSem sig := 27

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![2, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x256x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x16x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![2, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x64x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x16x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev grid3 : Pipeline.Grid := ⟨2, ![2, 1], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x1x256x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1x16x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev grid4 : Pipeline.Grid := ⟨2, ![2, 32], ![false, false]⟩

def cc4_transform_0 (i : grid4.Coords) : Fin 4 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![arg0.toNat, v9.toNat, c0_i32_3.toNat, c0_i32_4.toNat]

def cc4_transform_1 (i : grid4.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![arg0.toNat, v9.toNat, c0_i32_3.toNat, c0_i32_4.toNat]

def cc4_transform_2 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_3 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_4 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc4_transform_5 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage4_0 : Fin 2 → Memref sig .tc .vmem S1x1024x16x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x1024x16x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x256x16x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x1x16x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S1x1024x16x16 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S1x1024x16x16 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

class Facts₀ : Prop where
  inb_S1x1024x32x32_S1x1024x32x32_0_0_0_0 : ∀ a, (![0, 0, 0, 0] : Fin 4 → Nat) a + S1x1024x32x32.size a ≤ S1x1024x32x32.size a
  h_S1x1024x32x32 : 0 < S1x1024x32x32.numel
  shapeCasts_S1x1024x32x32_S1024x32x32 : S1x1024x32x32.ShapeCasts S1024x32x32
  shapeCasts_S1024x32x32_S1024x32x16x2 : S1024x32x32.ShapeCasts S1024x32x16x2
  reduces_S1024x32x16x2_S1024x32x16 : S1024x32x16x2.Reduces [3] S1024x32x16
  shapeCasts_S1024x32x16_S1024x16x2x16 : S1024x32x16.ShapeCasts S1024x16x2x16
  reduces_S1024x16x2x16_S1024x16x16 : S1024x16x2x16.Reduces [2] S1024x16x16
  inb_S1x1024x16x16_S1x1024x16x16_0_0_0_0 : ∀ a, (![0, 0, 0, 0] : Fin 4 → Nat) a + S1x1024x16x16.size a ≤ S1x1024x16x16.size a
  h_S1x1024x16x16 : 0 < S1x1024x16x16.numel
  shapeCasts_S1x1024x16x16_S1024x16x16 : S1x1024x16x16.ShapeCasts S1024x16x16
  shapeCasts_S1024x16x16_S1x1024x16x16 : S1024x16x16.ShapeCasts S1x1024x16x16
  inb_S1x256x64x64_S1x256x64x64_0_0_0_0 : ∀ a, (![0, 0, 0, 0] : Fin 4 → Nat) a + S1x256x64x64.size a ≤ S1x256x64x64.size a
  h_S1x256x64x64 : 0 < S1x256x64x64.numel
  shapeCasts_S1x256x64x64_S256x64x64 : S1x256x64x64.ShapeCasts S256x64x64
  shapeCasts_S256x64x64_S256x64x16x4 : S256x64x64.ShapeCasts S256x64x16x4
  reduces_S256x64x16x4_S256x64x16 : S256x64x16x4.Reduces [3] S256x64x16
  shapeCasts_S256x64x16_S256x16x4x16 : S256x64x16.ShapeCasts S256x16x4x16
  reduces_S256x16x4x16_S256x16x16 : S256x16x4x16.Reduces [2] S256x16x16
  inb_S1x256x16x16_S1x256x16x16_0_0_0_0 : ∀ a, (![0, 0, 0, 0] : Fin 4 → Nat) a + S1x256x16x16.size a ≤ S1x256x16x16.size a
  h_S1x256x16x16 : 0 < S1x256x16x16.numel
  shapeCasts_S1x256x16x16_S256x16x16 : S1x256x16x16.ShapeCasts S256x16x16
  shapeCasts_S256x16x16_S1x256x16x16 : S256x16x16.ShapeCasts S1x256x16x16
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  shapeCasts_S64x128x128_S64x128x16x8 : S64x128x128.ShapeCasts S64x128x16x8
  reduces_S64x128x16x8_S64x128x16 : S64x128x16x8.Reduces [3] S64x128x16
  shapeCasts_S64x128x16_S64x16x8x16 : S64x128x16.ShapeCasts S64x16x8x16
  reduces_S64x16x8x16_S64x16x16 : S64x16x8x16.Reduces [2] S64x16x16
  inb_S1x64x16x16_S1x64x16x16_0_0_0_0 : ∀ a, (![0, 0, 0, 0] : Fin 4 → Nat) a + S1x64x16x16.size a ≤ S1x64x16x16.size a
  h_S1x64x16x16 : 0 < S1x64x16x16.numel
  shapeCasts_S1x64x16x16_S64x16x16 : S1x64x16x16.ShapeCasts S64x16x16
  shapeCasts_S64x16x16_S1x64x16x16 : S64x16x16.ShapeCasts S1x64x16x16
  inb_S1x1x256x256_S1x1x256x256_0_0_0_0 : ∀ a, (![0, 0, 0, 0] : Fin 4 → Nat) a + S1x1x256x256.size a ≤ S1x1x256x256.size a
  h_S1x1x256x256 : 0 < S1x1x256x256.numel
  shapeCasts_S1x1x256x256_S1x256x256 : S1x1x256x256.ShapeCasts S1x256x256
  shapeCasts_S1x256x256_S1x256x16x16 : S1x256x256.ShapeCasts S1x256x16x16
  reduces_S1x256x16x16_S1x256x16 : S1x256x16x16.Reduces [3] S1x256x16
  shapeCasts_S1x256x16_S1x16x16x16 : S1x256x16.ShapeCasts S1x16x16x16
  reduces_S1x16x16x16_S1x16x16 : S1x16x16x16.Reduces [2] S1x16x16
  inb_S1x1x16x16_S1x1x16x16_0_0_0_0 : ∀ a, (![0, 0, 0, 0] : Fin 4 → Nat) a + S1x1x16x16.size a ≤ S1x1x16x16.size a
  h_S1x1x16x16 : 0 < S1x1x16x16.numel
  shapeCasts_S1x1x16x16_S1x16x16 : S1x1x16x16.ShapeCasts S1x16x16
  shapeCasts_S1x16x16_S1x1x16x16 : S1x16x16.ShapeCasts S1x1x16x16
  concatenates_S256x16x16_S256x16x16_S256x16x16_S256x16x16_S1024x16x16_d0 : Shape.Concatenates [S256x16x16, S256x16x16, S256x16x16, S256x16x16] S1024x16x16 0
  shapeCasts_S1x16x16_S1x16x16 : S1x16x16.ShapeCasts S1x16x16
  broadcasts_S1x16x16_S1024x16x16 : S1x16x16.Broadcasts S1024x16x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x32x32.size a ≤ S2x16384x32x32.size a
  hwx0_0 : ∀ i : grid0.Coords, EltTy.bits .f32 = 32 ∨ (Rect.block (s := S2x16384x32x32) S1x1024x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x16x16.size a ≤ S2x16384x16x16.size a
  hwx0_1 : ∀ i : grid0.Coords, EltTy.bits .f32 = 32 ∨ (Rect.block (s := S2x16384x16x16) S1x1024x16x16.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64x64.size a ≤ S2x4096x64x64.size a
  hwx1_0 : ∀ i : grid1.Coords, EltTy.bits .f32 = 32 ∨ (Rect.block (s := S2x4096x64x64) S1x256x64x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x16x16.size a ≤ S2x4096x16x16.size a
  hwx1_1 : ∀ i : grid1.Coords, EltTy.bits .f32 = 32 ∨ (Rect.block (s := S2x4096x16x16) S1x256x16x16.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x64x128x128.size a ≤ S2x256x128x128.size a
  hwx2_0 : ∀ i : grid2.Coords, EltTy.bits .f32 = 32 ∨ (Rect.block (s := S2x256x128x128) S1x64x128x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x16x16.size a ≤ S2x256x16x16.size a
  hwx2_1 : ∀ i : grid2.Coords, EltTy.bits .f32 = 32 ∨ (Rect.block (s := S2x256x16x16) S1x64x16x16.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1x256x256.size a ≤ S2x1x256x256.size a
  hwx3_0 : ∀ i : grid3.Coords, EltTy.bits .f32 = 32 ∨ (Rect.block (s := S2x1x256x256) S1x1x256x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x16x16.size a ≤ S2x1x16x16.size a
  hwx3_1 : ∀ i : grid3.Coords, EltTy.bits .f32 = 32 ∨ (Rect.block (s := S2x1x16x16) S1x1x16x16.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x1024x16x16.size a ≤ S2x16384x16x16.size a
  hwx4_0 : ∀ i : grid4.Coords, EltTy.bits .f32 = 32 ∨ (Rect.block (s := S2x16384x16x16) S1x1024x16x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x1024x16x16.size a ≤ S2x4096x16x16.size a
  hwx4_1 : ∀ i : grid4.Coords, EltTy.bits .f32 = 32 ∨ (Rect.block (s := S2x4096x16x16) S1x1024x16x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x256x16x16.size a ≤ S2x256x16x16.size a
  hwx4_2 : ∀ i : grid4.Coords, EltTy.bits .f32 = 32 ∨ (Rect.block (s := S2x256x16x16) S1x256x16x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1x16x16.size a ≤ S2x1x16x16.size a
  hwx4_3 : ∀ i : grid4.Coords, EltTy.bits .f32 = 32 ∨ (Rect.block (s := S2x1x16x16) S1x1x16x16.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x1024x16x16.size a ≤ S2x32768x16x16.size a
  hwx4_4 : ∀ i : grid4.Coords, EltTy.bits .f32 = 32 ∨ (Rect.block (s := S2x32768x16x16) S1x1024x16x16.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x1024x16x16.size a ≤ S2x32768x16x16.size a
  hwx4_5 : ∀ i : grid4.Coords, EltTy.bits .f32 = 32 ∨ (Rect.block (s := S2x32768x16x16) S1x1024x16x16.size (cc4_transform_5 i) (hinb4_5 i)).WholeWords (EltTy.packing .f32)

variable [Facts₀]

abbrev win0_0 : Pipeline.Window sig grid0 :=
  Pipeline.Window.ofSpec (Memref.whole main_arg0) S1x1024x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x16x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1x256x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x256x16x16.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg2) S1x64x128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1x64x16x16.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_arg3) S1x1x256x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1x1x16x16.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v0) S1x1024x16x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S1x1024x16x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v2) S1x256x16x16.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v3) S1x1x16x16.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg4) S1x1024x16x16.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v4) S1x1024x16x16.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S2x16384x32x32 : Shape := ⟨4, ![2, 16384, 32, 32]⟩
abbrev S2x4096x64x64 : Shape := ⟨4, ![2, 4096, 64, 64]⟩
abbrev S2x256x128x128 : Shape := ⟨4, ![2, 256, 128, 128]⟩
abbrev S2x1x256x256 : Shape := ⟨4, ![2, 1, 256, 256]⟩
abbrev S2x32768x16x16 : Shape := ⟨4, ![2, 32768, 16, 16]⟩
abbrev S_ : Shape := ⟨0, ![]⟩
abbrev S2x16384x16x16 : Shape := ⟨4, ![2, 16384, 16, 16]⟩
abbrev S1x2x1x16384x1x16x1x16 : Shape := ⟨8, ![1, 2, 1, 16384, 1, 16, 1, 16]⟩
abbrev S1x2x2x16384x1x16x1x16 : Shape := ⟨8, ![1, 2, 2, 16384, 1, 16, 1, 16]⟩
abbrev S2x4096x16x16 : Shape := ⟨4, ![2, 4096, 16, 16]⟩
abbrev S1x2x1x4096x1x16x1x16 : Shape := ⟨8, ![1, 2, 1, 4096, 1, 16, 1, 16]⟩
abbrev S1x2x8x4096x1x16x1x16 : Shape := ⟨8, ![1, 2, 8, 4096, 1, 16, 1, 16]⟩
abbrev S2x256x16x16 : Shape := ⟨4, ![2, 256, 16, 16]⟩
abbrev S1x2x1x256x1x16x1x16 : Shape := ⟨8, ![1, 2, 1, 256, 1, 16, 1, 16]⟩
abbrev S1x2x128x256x1x16x1x16 : Shape := ⟨8, ![1, 2, 128, 256, 1, 16, 1, 16]⟩
abbrev S2x1x16x16 : Shape := ⟨4, ![2, 1, 16, 16]⟩
abbrev S1x2x1x1x1x16x1x16 : Shape := ⟨8, ![1, 2, 1, 1, 1, 16, 1, 16]⟩
abbrev S1x2x32768x1x1x16x1x16 : Shape := ⟨8, ![1, 2, 32768, 1, 1, 16, 1, 16]⟩

abbrev nBuf : Space → Nat
  | .hbm => 36
  | .vmem => 0
  | .smem => 0
  | _ => 0

abbrev bufTy : (tb : Table) → Fin (tcTables nBuf tb) → BufTy
  | .hbm, ⟨0, _⟩ => ⟨S2x16384x32x32, .f32⟩
  | .hbm, ⟨1, _⟩ => ⟨S2x4096x64x64, .f32⟩
  | .hbm, ⟨2, _⟩ => ⟨S2x256x128x128, .f32⟩
  | .hbm, ⟨3, _⟩ => ⟨S2x1x256x256, .f32⟩
  | .hbm, ⟨4, _⟩ => ⟨S2x32768x16x16, .f32⟩
  | .hbm, ⟨5, _⟩ => ⟨S_, .f32⟩
  | .hbm, ⟨6, _⟩ => ⟨S_, .f32⟩
  | .hbm, ⟨7, _⟩ => ⟨S2x16384x16x16, .f32⟩
  | .hbm, ⟨8, _⟩ => ⟨S1x2x1x16384x1x16x1x16, .f32⟩
  | .hbm, ⟨9, _⟩ => ⟨S1x2x2x16384x1x16x1x16, .f32⟩
  | .hbm, ⟨10, _⟩ => ⟨S2x32768x16x16, .f32⟩
  | .hbm, ⟨11, _⟩ => ⟨S_, .f32⟩
  | .hbm, ⟨12, _⟩ => ⟨S_, .f32⟩
  | .hbm, ⟨13, _⟩ => ⟨S2x4096x16x16, .f32⟩
  | .hbm, ⟨14, _⟩ => ⟨S1x2x1x4096x1x16x1x16, .f32⟩
  | .hbm, ⟨15, _⟩ => ⟨S1x2x8x4096x1x16x1x16, .f32⟩
  | .hbm, ⟨16, _⟩ => ⟨S2x32768x16x16, .f32⟩
  | .hbm, ⟨17, _⟩ => ⟨S_, .f32⟩
  | .hbm, ⟨18, _⟩ => ⟨S_, .f32⟩
  | .hbm, ⟨19, _⟩ => ⟨S2x256x16x16, .f32⟩
  | .hbm, ⟨20, _⟩ => ⟨S1x2x1x256x1x16x1x16, .f32⟩
  | .hbm, ⟨21, _⟩ => ⟨S1x2x128x256x1x16x1x16, .f32⟩
  | .hbm, ⟨22, _⟩ => ⟨S2x32768x16x16, .f32⟩
  | .hbm, ⟨23, _⟩ => ⟨S_, .f32⟩
  | .hbm, ⟨24, _⟩ => ⟨S_, .f32⟩
  | .hbm, ⟨25, _⟩ => ⟨S2x1x16x16, .f32⟩
  | .hbm, ⟨26, _⟩ => ⟨S1x2x1x1x1x16x1x16, .f32⟩
  | .hbm, ⟨27, _⟩ => ⟨S1x2x32768x1x1x16x1x16, .f32⟩
  | .hbm, ⟨28, _⟩ => ⟨S2x32768x16x16, .f32⟩
  | .hbm, ⟨29, _⟩ => ⟨S2x32768x16x16, .f32⟩
  | .hbm, ⟨30, _⟩ => ⟨S2x32768x16x16, .f32⟩
  | .hbm, ⟨31, _⟩ => ⟨S2x32768x16x16, .f32⟩
  | .hbm, ⟨32, _⟩ => ⟨S2x32768x16x16, .f32⟩
  | .hbm, ⟨33, _⟩ => ⟨S_, .f32⟩
  | .hbm, ⟨34, _⟩ => ⟨S2x32768x16x16, .f32⟩
  | .hbm, ⟨35, _⟩ => ⟨S2x32768x16x16, .f32⟩
  | _, _ => ⟨S2x16384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_cst : Ref sig .tc := ⟨.hbm, 33, rfl⟩
abbrev main_call0_v0 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S2x16384x32x32_S2x16384x16x16_w1s1p0_0_w1s1p0_0_w2s2p0_0_w2s2p0_0 : S2x16384x32x32.ReduceWindows (![1, 1, 2, 2] : Fin 4 → Nat) ![1, 1, 2, 2] ![0, 0, 0, 0] ![0, 0, 0, 0] S2x16384x16x16
  h_S_ : 0 < S_.numel
  shapeCasts_S2x16384x16x16_S1x2x1x16384x1x16x1x16 : S2x16384x16x16.ShapeCasts S1x2x1x16384x1x16x1x16
  bcast_S1x2x1x16384x1x16x1x16_S1x2x2x16384x1x16x1x16_0_1_2_3_4_5_6_7 : S1x2x1x16384x1x16x1x16.BroadcastsInDim S1x2x2x16384x1x16x1x16 (![0, 1, 2, 3, 4, 5, 6, 7] : Fin 8 → Fin S1x2x2x16384x1x16x1x16.rank)
  shapeCasts_S1x2x2x16384x1x16x1x16_S2x32768x16x16 : S1x2x2x16384x1x16x1x16.ShapeCasts S2x32768x16x16
  reduceWindows_S2x4096x64x64_S2x4096x16x16_w1s1p0_0_w1s1p0_0_w4s4p0_0_w4s4p0_0 : S2x4096x64x64.ReduceWindows (![1, 1, 4, 4] : Fin 4 → Nat) ![1, 1, 4, 4] ![0, 0, 0, 0] ![0, 0, 0, 0] S2x4096x16x16
  shapeCasts_S2x4096x16x16_S1x2x1x4096x1x16x1x16 : S2x4096x16x16.ShapeCasts S1x2x1x4096x1x16x1x16
  bcast_S1x2x1x4096x1x16x1x16_S1x2x8x4096x1x16x1x16_0_1_2_3_4_5_6_7 : S1x2x1x4096x1x16x1x16.BroadcastsInDim S1x2x8x4096x1x16x1x16 (![0, 1, 2, 3, 4, 5, 6, 7] : Fin 8 → Fin S1x2x8x4096x1x16x1x16.rank)
  shapeCasts_S1x2x8x4096x1x16x1x16_S2x32768x16x16 : S1x2x8x4096x1x16x1x16.ShapeCasts S2x32768x16x16
  reduceWindows_S2x256x128x128_S2x256x16x16_w1s1p0_0_w1s1p0_0_w8s8p0_0_w8s8p0_0 : S2x256x128x128.ReduceWindows (![1, 1, 8, 8] : Fin 4 → Nat) ![1, 1, 8, 8] ![0, 0, 0, 0] ![0, 0, 0, 0] S2x256x16x16
  shapeCasts_S2x256x16x16_S1x2x1x256x1x16x1x16 : S2x256x16x16.ShapeCasts S1x2x1x256x1x16x1x16
  bcast_S1x2x1x256x1x16x1x16_S1x2x128x256x1x16x1x16_0_1_2_3_4_5_6_7 : S1x2x1x256x1x16x1x16.BroadcastsInDim S1x2x128x256x1x16x1x16 (![0, 1, 2, 3, 4, 5, 6, 7] : Fin 8 → Fin S1x2x128x256x1x16x1x16.rank)
  shapeCasts_S1x2x128x256x1x16x1x16_S2x32768x16x16 : S1x2x128x256x1x16x1x16.ShapeCasts S2x32768x16x16
  reduceWindows_S2x1x256x256_S2x1x16x16_w1s1p0_0_w1s1p0_0_w16s16p0_0_w16s16p0_0 : S2x1x256x256.ReduceWindows (![1, 1, 16, 16] : Fin 4 → Nat) ![1, 1, 16, 16] ![0, 0, 0, 0] ![0, 0, 0, 0] S2x1x16x16
  shapeCasts_S2x1x16x16_S1x2x1x1x1x16x1x16 : S2x1x16x16.ShapeCasts S1x2x1x1x1x16x1x16
  bcast_S1x2x1x1x1x16x1x16_S1x2x32768x1x1x16x1x16_0_1_2_3_4_5_6_7 : S1x2x1x1x1x16x1x16.BroadcastsInDim S1x2x32768x1x1x16x1x16 (![0, 1, 2, 3, 4, 5, 6, 7] : Fin 8 → Fin S1x2x32768x1x1x16x1x16.rank)
  shapeCasts_S1x2x32768x1x1x16x1x16_S2x32768x16x16 : S1x2x32768x1x1x16x1x16.ShapeCasts S2x32768x16x16
  bcast_S_S2x32768x16x16 : S_.BroadcastsInDim S2x32768x16x16 (![] : Fin 0 → Fin S2x32768x16x16.rank)

variable [Facts₀]

class Facts : Prop extends Facts₀ where

variable [Facts]
-- ==== Proof.KernelRun.lean ====
/-
  The idealized kernel program's run with its result named.

  @main is five pallas_calls in a row and nothing else. The buffer contents at each boundary are a fold from the launch
  memory: after a call, the arrays its windows name hold what the pipeline's write-backs leave and every other buffer
  holds what it held before. Every weakly fair execution terminates in a state that agrees with the last stage of that
  fold on every unscoped buffer; read at the result buffer, that stage is the output array of the fifth call after its
  last grid point, and read at an argument it walks back to the launch memory.
-/
import proofs.«136280_j69715909149112_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the fifth call's
    output array after its last grid point and the argument arrays as launched. -/
theorem run : θ_run defs (onTc (τ := τ) (main (F := F))) ⟨m, fun _ => 0, ρ⟩ (fun r => ∀ c : Dev nD,
      r.2.mem ((c.tc : Thread nD τ).loc main_v4) = (dat4 (V4 m ρ) c).arrAt 5 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v4 (by decide))).trans (W5_arr m ρ c 5),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Run

end
-- ==== Proof.PoolSpec.lean ====
/-
  The mathematics both programs compute, stated once over literal rank-4 shapes and the extended reals.

  * `IsPool k x y`: the array `y` over [B, C, Hk, Wk] is the k-by-k max-pooling of `x` over [B, C, H, W] — said by its
    universal property: a bound `z` dominates the entry `y[b, c, i, j]` exactly when it dominates every entry
    `x[b, c, p, q]` of the window of rows `p` with `p / k = i` and columns `q` with `q / k = j`. The extended reals are a
    partial order, so two arrays with this property for the same `x` are equal (`IsPool.unique`): whatever order the
    maxima of a window are taken in — rows first and then columns, or the whole window at once — the result is one array.
  * `combine p1 p2 p3 p4 ff`: the relu of the five-term sum in which the four pooled arrays are tiled along the channel
    axis up to 32768 channels (channel `c` of the result reads channel `c mod 16384`, `c mod 4096`, `c mod 256` and `0`
    of the four arrays), the sum associated to the left as both programs write it.
-/
import Idealize.ShloMosaic.PureOps.Ideal
import Idealize.ShloMosaic.Lib.ValueIdx

noncomputable section

namespace Cert.PoolTile

open Idealize.ShloMosaic Idealize.ShloMosaic.ValueIdx

/-- `y` is the k-by-k max-pooling of `x` over the two trailing axes, by its universal property. -/
def IsPool (k : Nat) {B C H W Hk Wk : Nat} (x : (⟨4, ![B, C, H, W]⟩ : Shape).Idx → EReal)
    (y : (⟨4, ![B, C, Hk, Wk]⟩ : Shape).Idx → EReal) : Prop :=
  ∀ (b : Fin B) (c : Fin C) (i : Fin Hk) (j : Fin Wk) (z : EReal),
    y (ix4 b c i j) ≤ z ↔ ∀ (p : Fin H) (q : Fin W), p.val / k = i.val → q.val / k = j.val → x (ix4 b c p q) ≤ z

/-- The pooling of an array is unique: two arrays with the same upper bounds entry by entry are one array. -/
theorem IsPool.unique {k B C H W Hk Wk : Nat} {x : (⟨4, ![B, C, H, W]⟩ : Shape).Idx → EReal}
    {y y' : (⟨4, ![B, C, Hk, Wk]⟩ : Shape).Idx → EReal} (h : IsPool k x y) (h' : IsPool k x y') : y = y' := by
  funext idx
  rw [eq_ix4 idx]
  exact eq_of_forall_ge_iff fun z => (h _ _ _ _ z).trans (h' _ _ _ _ z).symm

/-- The tiled five-term sum and its relu, entry by entry. -/
def combine (p1 : (⟨4, ![2, 16384, 16, 16]⟩ : Shape).Idx → EReal) (p2 : (⟨4, ![2, 4096, 16, 16]⟩ : Shape).Idx → EReal)
    (p3 : (⟨4, ![2, 256, 16, 16]⟩ : Shape).Idx → EReal) (p4 : (⟨4, ![2, 1, 16, 16]⟩ : Shape).Idx → EReal)
    (ff : (⟨4, ![2, 32768, 16, 16]⟩ : Shape).Idx → EReal) : (⟨4, ![2, 32768, 16, 16]⟩ : Shape).Idx → EReal :=
  fun idx =>
    let b : Fin 2 := idx 0
    let c : Fin 32768 := idx 1
    let i : Fin 16 := idx 2
    let j : Fin 16 := idx 3
    max ((((p1 (ix4 b ⟨c.val % 16384, Nat.mod_lt _ (by decide)⟩ i j)
          + p2 (ix4 b ⟨c.val % 4096, Nat.mod_lt _ (by decide)⟩ i j))
          + p3 (ix4 b ⟨c.val % 256, Nat.mod_lt _ (by decide)⟩ i j))
          + p4 (ix4 b (0 : Fin 1) i j))
          + ff (ix4 b c i j)) 0

/-- `combine` read at coordinates. -/
theorem combine_apply (p1 : (⟨4, ![2, 16384, 16, 16]⟩ : Shape).Idx → EReal) (p2 : (⟨4, ![2, 4096, 16, 16]⟩ : Shape).Idx → EReal)
    (p3 : (⟨4, ![2, 256, 16, 16]⟩ : Shape).Idx → EReal) (p4 : (⟨4, ![2, 1, 16, 16]⟩ : Shape).Idx → EReal)
    (ff : (⟨4, ![2, 32768, 16, 16]⟩ : Shape).Idx → EReal) (b : Fin 2) (c : Fin 32768) (i j : Fin 16) :
    combine p1 p2 p3 p4 ff (ix4 b c i j)
      = max ((((p1 (ix4 b ⟨c.val % 16384, Nat.mod_lt _ (by decide)⟩ i j)
          + p2 (ix4 b ⟨c.val % 4096, Nat.mod_lt _ (by decide)⟩ i j))
          + p3 (ix4 b ⟨c.val % 256, Nat.mod_lt _ (by decide)⟩ i j))
          + p4 (ix4 b (0 : Fin 1) i j))
          + ff (ix4 b c i j)) 0 := rfl

end Cert.PoolTile

end
-- ==== Proof.LibPoolBody.lean ====
/-
  Max-pooling written as two successive maxima, read by its upper bounds.

  A block `x` over [1, C, H, W] with H = Hk·k and W = Wk·k is pooled by a kernel body in two steps: the columns are
  split as [C, H, Wk, k] and the maximum is taken over the trailing axis from -∞, then the rows are split as
  [C, Hk, k, Wk] and the maximum is taken over the new axis from -∞, and the leading unit axis is put back. At the
  extended reals a maximum from -∞ over a finite family is below a bound `z` exactly when every member is, so the
  entry at (c, i, j) of the result is below `z` exactly when every entry `x[0, c, p, q]` with `p / k = i` and
  `q / k = j` is: the k-by-k window's entries, with no reference to the order in which they were folded.
-/
import Idealize.ShloMosaic.PureOps.Ideal.Laws
import Idealize.ShloMosaic.Lib.ValueIdx
import Idealize.ShloMosaic.Lib.ValueLayout
import Idealize.ShloMosaic.Lib.Pipeline.Value
import Mathlib.Tactic.Ring

noncomputable section

namespace Cert.PoolTile

open Idealize.ShloMosaic Idealize.ShloMosaic.ValueIdx

/-- The f32 word of -∞ is the bottom of the extended reals. -/
theorem ofBits_neg_inf : Ideal.ofBits .f32 0xFF800000#32 = (⊥ : EReal) := by simp [Ideal.ofBits, Ideal.ieee]

/-- Position `d` of window `i` among `n` windows of width `k` lies inside the axis of extent `n * k`. -/
theorem window_bound {n k : Nat} (i : Fin n) (d : Fin k) : i.val * k + d.val < n * k := by
  have h1 : (i.val + 1) * k ≤ n * k := Nat.mul_le_mul_right k i.isLt
  have h2 : (i.val + 1) * k = i.val * k + k := by rw [Nat.add_mul, Nat.one_mul]
  have := d.isLt
  omega

/-- The positions of window `i` are exactly the positions whose quotient by the width is `i`. -/
theorem forall_window {n k : Nat} (i : Fin n) (P : Fin (n * k) → Prop) :
    (∀ d : Fin k, P ⟨i.val * k + d.val, window_bound i d⟩) ↔ ∀ p : Fin (n * k), p.val / k = i.val → P p := by
  constructor
  · intro h p hp
    have hk : 0 < k := by
      rcases Nat.eq_zero_or_pos k with h0 | h0
      · exfalso
        have hlt : p.val < n * k := p.isLt
        have hz : n * k = 0 := by rw [h0, Nat.mul_zero]
        omega
      · exact h0
    have e : i.val * k + p.val % k = p.val := by
      have := Nat.div_add_mod p.val k
      rw [hp, Nat.mul_comm] at this
      exact this
    have hd := h ⟨p.val % k, Nat.mod_lt _ hk⟩
    have ep : (⟨i.val * k + p.val % k, window_bound i ⟨p.val % k, Nat.mod_lt _ hk⟩⟩ : Fin (n * k)) = p := Fin.ext e
    rw [ep] at hd
    exact hd
  · intro h d
    refine h _ ?_
    show (i.val * k + d.val) / k = i.val
    have hk : 0 < k := Nat.lt_of_le_of_lt (Nat.zero_le _) d.isLt
    rw [Nat.add_comm, Nat.add_mul_div_right _ _ hk, Nat.div_eq_of_lt d.isLt, Nat.zero_add]

variable {C Hk Wk k : Nat}

/-- The maximum over the trailing axis of the columns split as [C, H, Wk, k]: below `z` iff the `k` entries of the
    column window are. -/
theorem colmax_le {H : Nat} (x : (⟨4, ![1, C, H, Wk * k]⟩ : Shape).Idx → EReal)
    (h1 : (⟨4, ![1, C, H, Wk * k]⟩ : Shape).ShapeCasts ⟨3, ![C, H, Wk * k]⟩)
    (h2 : (⟨3, ![C, H, Wk * k]⟩ : Shape).ShapeCasts ⟨4, ![C, H, Wk, k]⟩)
    (r1 : (⟨4, ![C, H, Wk, k]⟩ : Shape).Reduces [3] ⟨3, ![C, H, Wk]⟩)
    (hφ : FKind.Formats .f32) (hacc : (0xFF800000#32 : BitVec 32) = FKind.maximumf.neutral .f32 hφ)
    (c : Fin C) (p : Fin H) (j : Fin Wk) (z : EReal) :
    multiReduction (F := Ideal) .maximumf [3] ⟨3, ![C, H, Wk]⟩
        (shapeCast ⟨4, ![C, H, Wk, k]⟩ (shapeCast ⟨3, ![C, H, Wk * k]⟩ x h1) h2) 0xFF800000#32 r1 hφ hacc (ix3 c p j) ≤ z
      ↔ ∀ d : Fin k, x (ix4 (0 : Fin 1) c p ⟨j.val * k + d.val, window_bound j d⟩) ≤ z := by
  have hread : ∀ d : Fin k, (shapeCast ⟨4, ![C, H, Wk, k]⟩ (shapeCast ⟨3, ![C, H, Wk * k]⟩ x h1) h2) (r1.lift (ix3 c p j) d)
      = x (ix4 (0 : Fin 1) c p ⟨j.val * k + d.val, window_bound j d⟩) := by
    intro d
    refine (shapeCast_apply _ h2 _ (ix3 c p ⟨j.val * k + d.val, window_bound j d⟩) ?_).trans ?_
    · rw [Shape.rowMajor_val_three, Shape.rowMajor_val_four]
      show (c.val * H + p.val) * (Wk * k) + (j.val * k + d.val) = ((c.val * H + p.val) * Wk + j.val) * k + d.val
      ring
    · exact shapeCast_1abc_abc_apply x h1 c p _
  rw [Ideal.multiReduction_maximumf_single, Finset.fold_max_le, Ideal.ofBits_def, ofBits_neg_inf]
  constructor
  · rintro ⟨-, h⟩ d
    exact (hread d).symm.trans_le (h d (Finset.mem_univ _))
  · intro h
    exact ⟨bot_le, fun d _ => (hread d).trans_le (h d)⟩

/-- The maximum over the split axis of the rows split as [C, Hk, k, Wk]: below `z` iff the `k` entries of the row
    window are. -/
theorem rowmax_le (y : (⟨3, ![C, Hk * k, Wk]⟩ : Shape).Idx → EReal)
    (h3 : (⟨3, ![C, Hk * k, Wk]⟩ : Shape).ShapeCasts ⟨4, ![C, Hk, k, Wk]⟩)
    (r2 : (⟨4, ![C, Hk, k, Wk]⟩ : Shape).Reduces [2] ⟨3, ![C, Hk, Wk]⟩)
    (hφ : FKind.Formats .f32) (hacc : (0xFF800000#32 : BitVec 32) = FKind.maximumf.neutral .f32 hφ)
    (c : Fin C) (i : Fin Hk) (j : Fin Wk) (z : EReal) :
    multiReduction (F := Ideal) .maximumf [2] ⟨3, ![C, Hk, Wk]⟩
        (shapeCast ⟨4, ![C, Hk, k, Wk]⟩ y h3) 0xFF800000#32 r2 hφ hacc (ix3 c i j) ≤ z
      ↔ ∀ d : Fin k, y (ix3 c ⟨i.val * k + d.val, window_bound i d⟩ j) ≤ z := by
  have hread : ∀ d : Fin k, (shapeCast ⟨4, ![C, Hk, k, Wk]⟩ y h3) (r2.lift (ix3 c i j) d)
      = y (ix3 c ⟨i.val * k + d.val, window_bound i d⟩ j) := by
    intro d
    refine shapeCast_apply _ h3 _ (ix3 c ⟨i.val * k + d.val, window_bound i d⟩ j) ?_
    rw [Shape.rowMajor_val_three, Shape.rowMajor_val_four]
    show (c.val * (Hk * k) + (i.val * k + d.val)) * Wk + j.val = ((c.val * Hk + i.val) * k + d.val) * Wk + j.val
    ring
  rw [Ideal.multiReduction_maximumf_single, Finset.fold_max_le, Ideal.ofBits_def, ofBits_neg_inf]
  constructor
  · rintro ⟨-, h⟩ d
    exact (hread d).symm.trans_le (h d (Finset.mem_univ _))
  · intro h
    exact ⟨bot_le, fun d _ => (hread d).trans_le (h d)⟩

/-- THE POOLED BLOCK BY ITS UPPER BOUNDS: columns first, rows second, the unit axis put back — the entry at
    (0, c, i, j) is below `z` iff every entry of the k-by-k window is. -/
theorem pool_body_le {H W : Nat} (hH : H = Hk * k) (hW : W = Wk * k)
    (x : (⟨4, ![1, C, H, W]⟩ : Shape).Idx → EReal)
    (h1 : (⟨4, ![1, C, H, W]⟩ : Shape).ShapeCasts ⟨3, ![C, H, W]⟩)
    (h2 : (⟨3, ![C, H, W]⟩ : Shape).ShapeCasts ⟨4, ![C, H, Wk, k]⟩)
    (r1 : (⟨4, ![C, H, Wk, k]⟩ : Shape).Reduces [3] ⟨3, ![C, H, Wk]⟩)
    (h3 : (⟨3, ![C, H, Wk]⟩ : Shape).ShapeCasts ⟨4, ![C, Hk, k, Wk]⟩)
    (r2 : (⟨4, ![C, Hk, k, Wk]⟩ : Shape).Reduces [2] ⟨3, ![C, Hk, Wk]⟩)
    (h4 : (⟨3, ![C, Hk, Wk]⟩ : Shape).ShapeCasts ⟨4, ![1, C, Hk, Wk]⟩)
    (hφ : FKind.Formats .f32) (hacc : (0xFF800000#32 : BitVec 32) = FKind.maximumf.neutral .f32 hφ)
    (hφ' : FKind.Formats .f32) (hacc' : (0xFF800000#32 : BitVec 32) = FKind.maximumf.neutral .f32 hφ')
    (u : Fin 1) (c : Fin C) (i : Fin Hk) (j : Fin Wk) (z : EReal) :
    shapeCast ⟨4, ![1, C, Hk, Wk]⟩
        (multiReduction (F := Ideal) .maximumf [2] ⟨3, ![C, Hk, Wk]⟩
          (shapeCast ⟨4, ![C, Hk, k, Wk]⟩
            (multiReduction (F := Ideal) .maximumf [3] ⟨3, ![C, H, Wk]⟩
              (shapeCast ⟨4, ![C, H, Wk, k]⟩ (shapeCast ⟨3, ![C, H, W]⟩ x h1) h2) 0xFF800000#32 r1 hφ hacc) h3)
          0xFF800000#32 r2 hφ' hacc') h4 (ix4 u c i j) ≤ z
      ↔ ∀ (p : Fin H) (q : Fin W), p.val / k = i.val → q.val / k = j.val → x (ix4 (0 : Fin 1) c p q) ≤ z := by
  subst hH hW
  rw [shapeCast_abc_1abc_apply, rowmax_le]
  refine (forall_congr' fun d => colmax_le x h1 h2 r1 hφ hacc c ⟨i.val * k + d.val, window_bound i d⟩ j z).trans ?_
  rw [forall_window i (fun p => ∀ d' : Fin k, x (ix4 (0 : Fin 1) c p ⟨j.val * k + d'.val, window_bound j d'⟩) ≤ z)]
  refine forall_congr' fun p => ?_
  constructor
  · intro h q hp hq
    exact (forall_window j (fun q => x (ix4 (0 : Fin 1) c p q) ≤ z)).mp (h hp) q hq
  · intro h hp
    exact (forall_window j (fun q => x (ix4 (0 : Fin 1) c p q) ≤ z)).mpr (fun q hq => h q hp hq)

end Cert.PoolTile

end
-- ==== Proof.PoolBlocks0.lean ====
/-
  Pooling call 0: the array it leaves is the 2-by-2 max-pooling of its input array.

  The call walks a grid of 2 by 16 points; point (b, n) loads the block of 1024 channels starting at channel
  1024·n of image b, pools it with the body's two maxima, and writes the block of the same channels of the
  output back. The input and output blocks of a point sit at the same batch and channel offsets, the blocks tile
  the output, and an entry of the pooled block has the same upper bounds as the window of the input array under
  it: so the output array is the one array with the pooling property.
-/
import proofs.«136280_j69715909149112_1_alg».proof.Proof.Gen.KernelIdeal.Frame
import proofs.«136280_j69715909149112_1_alg».proof.Proof.PoolSpec
import proofs.«136280_j69715909149112_1_alg».proof.Proof.LibPoolBody

set_option maxRecDepth 16384

noncomputable section

namespace Cert.KernelIdeal.Pool0

open Cert.KernelIdeal Cert.KernelIdeal.Gen Cert.PoolTile
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0, 0, 0] : Fin 4 → Nat) = fun _ => 0 := funext fun a => by fin_cases a <;> rfl

/-- The body's payload by its upper bounds: the entry at (c, i, j) is below `z` iff the window of the loaded block is. -/
theorem pay_le (x0 : Vec Ideal S1x1024x32x32 .f32) (u : Fin 1) (c : Fin 1024) (i j : Fin 16) (z : EReal) :
    (k0_pay1 (F := Ideal) x0 (ix4 u c i j) : EReal) ≤ z
      ↔ ∀ (p : Fin 32) (q : Fin 32), p.val / 2 = i.val → q.val / 2 = j.val → (x0 (ix4 (0 : Fin 1) c p q) : EReal) ≤ z :=
  pool_body_le (C := 1024) (Hk := 16) (Wk := 16) (k := 2) (H := 32) (W := 32) rfl rfl x0
    shapeCasts_S1x1024x32x32_S1024x32x32 shapeCasts_S1024x32x32_S1024x32x16x2 reduces_S1024x32x16x2_S1024x32x16
    shapeCasts_S1024x32x16_S1024x16x2x16 reduces_S1024x16x2x16_S1024x16x16 shapeCasts_S1024x16x16_S1x1024x16x16
    (.inl rfl) rfl (.inl rfl) rfl u c i j z

/-- The printed index maps, decided over the grid: the input block and the output block of a point have the same
    batch and channel-block indices, and both start at row and column zero. -/
theorem idx_facts : ∀ t : Fin cfg0.N,
    win0_0.index t (0 : Fin 4) = win0_1.index t (0 : Fin 4) ∧ win0_0.index t (1 : Fin 4) = win0_1.index t (1 : Fin 4)
    ∧ win0_0.index t (2 : Fin 4) = 0 ∧ win0_0.index t (3 : Fin 4) = 0
    ∧ win0_1.index t (2 : Fin 4) = 0 ∧ win0_1.index t (3 : Fin 4) = 0
    ∧ win0_1.index t (0 : Fin 4) ≤ 1 ∧ win0_1.index t (1 : Fin 4) ≤ 15 :=
  (by decide +kernel : ∀ t : Fin grid0.N, _)

/-- Every block of the output is some point's. -/
theorem idx_onto : ∀ (q0 : Fin 2) (q1 : Fin 16), ∃ t : Fin cfg0.N, win0_1.index t = ![q0.val, q1.val, 0, 0] :=
  (by decide +kernel : ∀ (q0 : Fin 2) (q1 : Fin 16), ∃ t : Fin grid0.N, win0_1.index t = ![q0.val, q1.val, 0, 0])

/-- The input block at a point is the input array read under the block. -/
theorem iblk_apply (c : Dev nD) (t : Fin cfg0.N) (y : S1x1024x32x32.Idx) :
    iblk0 V c 0 t y = V c main_arg0 (((cfg0.win 0).blk t).view.emb y) := rfl

/-- WHAT A POINT WRITES BACK is its block of any array `G` that is the pooling of the input array. -/
theorem flushed_eq (c : Dev nD) (G : S2x16384x16x16.Idx → EReal)
    (hG : IsPool 2 (B := 2) (C := 16384) (H := 32) (W := 32) (Hk := 16) (Wk := 16) (V c main_arg0) G) (t : Fin cfg0.N) :
    (dat0 V c).flushed 1 t = ((cfg0.win 1).blk t).view.read (Elt Ideal) G := by
  show (cfg0.win 1).cut (grid0.coords t) ((dat0 V c).after 1 t) = _
  rw [after0_1]
  unfold out0_1
  rw [View.canon_unit_zero hz]
  simp only [View.ld_unit_zero (S := S1x1024x32x32) hz]
  obtain ⟨e0, e1, e2, e3, e4, e5, e6, e7⟩ := idx_facts t
  funext y
  obtain ⟨u, cc, i, j, rfl⟩ : ∃ (u : Fin 1) (cc : Fin 1024) (i j : Fin 16), y = ix4 u cc i j :=
    ⟨y 0, y 1, y 2, y 3, eq_ix4 y⟩
  show (k0_pay1 (F := Ideal) (iblk0 V c 0 t) (ix4 u cc i j) : EReal) = G (((cfg0.win 1).blk t).view.emb (ix4 u cc i j))
  refine eq_of_forall_ge_iff fun z => ?_
  refine (pay_le (iblk0 V c 0 t) u cc i j z).trans ?_
  generalize heo : ((cfg0.win 1).blk t).view.emb (ix4 u cc i j) = eo
  obtain ⟨b', c', i', j', rfl⟩ : ∃ (b' : Fin 2) (c' : Fin 16384) (i' j' : Fin 16), eo = ix4 b' c' i' j' :=
    ⟨_, _, _, _, eq_ix4 (n0 := 2) (n1 := 16384) (n2 := 16) (n3 := 16) eo⟩
  have hu : u.val = 0 := by have := u.isLt; omega
  have h0 : win0_1.index t (0 : Fin 4) * 1 + 1 * u.val = b'.val := congrArg (fun e : S2x16384x16x16.Idx => (e 0).val) heo
  have h1 : win0_1.index t (1 : Fin 4) * 1024 + 1 * cc.val = c'.val := congrArg (fun e : S2x16384x16x16.Idx => (e 1).val) heo
  have h2 : win0_1.index t (2 : Fin 4) * 16 + 1 * i.val = i'.val := congrArg (fun e : S2x16384x16x16.Idx => (e 2).val) heo
  have h3 : win0_1.index t (3 : Fin 4) * 16 + 1 * j.val = j'.val := congrArg (fun e : S2x16384x16x16.Idx => (e 3).val) heo
  have hi : i'.val = i.val := by omega
  have hj : j'.val = j.val := by omega
  rw [hG b' c' i' j' z, hi, hj]
  have hin : ∀ (p q : Fin 32), iblk0 V c 0 t (ix4 (0 : Fin 1) cc p q) = V c main_arg0 (ix4 b' c' p q) := by
    intro p q
    rw [iblk_apply]
    refine congrArg (V c main_arg0) (funext fun a => Fin.ext ?_)
    match a with
    | ⟨0, _⟩ => show win0_0.index t (0 : Fin 4) * 1 + 1 * 0 = b'.val; omega
    | ⟨1, _⟩ => show win0_0.index t (1 : Fin 4) * 1024 + 1 * cc.val = c'.val; omega
    | ⟨2, _⟩ => show win0_0.index t (2 : Fin 4) * 32 + 1 * p.val = p.val; omega
    | ⟨3, _⟩ => show win0_0.index t (3 : Fin 4) * 32 + 1 * q.val = q.val; omega
  exact forall_congr' fun p => forall_congr' fun q => by rw [hin p q]

/-- An index of the output array is in a point's block iff each coordinate is in the block's range on its axis. -/
theorem mem_blk (t : Fin cfg0.N) (i : S2x16384x16x16.Idx) :
    i ∈ ((cfg0.win 1).blk t).view.set ↔ ∀ a : Fin 4, win0_1.index t a * S1x1024x16x16.size a ≤ (i a).val ∧ (i a).val < win0_1.index t a * S1x1024x16x16.size a + S1x1024x16x16.size a := by
  show i ∈ ((View.whole main_v0).slice (win0_1.rect t)).set ↔ _
  rw [View.set_slice_whole, Rect.mem_set_unit]
  exact Iff.rfl

/-- The blocks tile the output array: every index is in some point's block. -/
theorem cover (i : S2x16384x16x16.Idx) : ∃ t : Fin cfg0.N, (cfg0.win 1).flush t = true ∧ i ∈ ((cfg0.win 1).blk t).view.set := by
  have hi0 : (i 0).val < 2 := (i 0).isLt
  have hi1 : (i 1).val < 16384 := (i 1).isLt
  have hi2 : (i 2).val < 16 := (i 2).isLt
  have hi3 : (i 3).val < 16 := (i 3).isLt
  obtain ⟨t, ht⟩ := idx_onto ⟨(i 0).val, hi0⟩ ⟨(i 1).val / 1024, by omega⟩
  have q0 : win0_1.index t (0 : Fin 4) = (i 0).val := congrFun ht 0
  have q1 : win0_1.index t (1 : Fin 4) = (i 1).val / 1024 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 1024 ≤ (i 1).val ∧ (i 1).val < win0_1.index t (1 : Fin 4) * 1024 + 1024; omega
  | ⟨2, _⟩ => show win0_1.index t (2 : Fin 4) * 16 ≤ (i 2).val ∧ (i 2).val < win0_1.index t (2 : Fin 4) * 16 + 16; omega
  | ⟨3, _⟩ => show win0_1.index t (3 : Fin 4) * 16 ≤ (i 3).val ∧ (i 3).val < win0_1.index t (3 : Fin 4) * 16 + 16; omega

/-- THE OUTPUT ARRAY after the call is the pooling of the input array as the call finds it. -/
theorem pooled (c : Dev nD) (G : S2x16384x16x16.Idx → EReal)
    (hG : IsPool 2 (B := 2) (C := 16384) (H := 32) (W := 32) (Hk := 16) (Wk := 16) (V c main_arg0) G) :
    (dat0 V c).arrAt 1 cfg0.N = G :=
  (dat0 V c).arrAt_eq_of_cover 1 G (fun t _ => flushed_eq V c G hG t) cover

end Cert.KernelIdeal.Pool0

end
-- ==== Proof.PoolBlocks1.lean ====
/-
  Pooling call 1: the array it leaves is the 4-by-4 max-pooling of its input array.

  The call walks a grid of 2 by 16 points; point (b, n) loads the block of 256 channels starting at channel
  256·n of image b, pools it with the body's two maxima, and writes the block of the same channels of the
  output back. The input and output blocks of a point sit at the same batch and channel offsets, the blocks tile
  the output, and an entry of the pooled block has the same upper bounds as the window of the input array under
  it: so the output array is the one array with the pooling property.
-/
import proofs.«136280_j69715909149112_1_alg».proof.Proof.Gen.KernelIdeal.Frame
import proofs.«136280_j69715909149112_1_alg».proof.Proof.PoolSpec
import proofs.«136280_j69715909149112_1_alg».proof.Proof.LibPoolBody

set_option maxRecDepth 16384

noncomputable section

namespace Cert.KernelIdeal.Pool1

open Cert.KernelIdeal Cert.KernelIdeal.Gen Cert.PoolTile
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0, 0, 0] : Fin 4 → Nat) = fun _ => 0 := funext fun a => by fin_cases a <;> rfl

/-- The body's payload by its upper bounds: the entry at (c, i, j) is below `z` iff the window of the loaded block is. -/
theorem pay_le (x0 : Vec Ideal S1x256x64x64 .f32) (u : Fin 1) (c : Fin 256) (i j : Fin 16) (z : EReal) :
    (k1_pay1 (F := Ideal) x0 (ix4 u c i j) : EReal) ≤ z
      ↔ ∀ (p : Fin 64) (q : Fin 64), p.val / 4 = i.val → q.val / 4 = j.val → (x0 (ix4 (0 : Fin 1) c p q) : EReal) ≤ z :=
  pool_body_le (C := 256) (Hk := 16) (Wk := 16) (k := 4) (H := 64) (W := 64) rfl rfl x0
    shapeCasts_S1x256x64x64_S256x64x64 shapeCasts_S256x64x64_S256x64x16x4 reduces_S256x64x16x4_S256x64x16
    shapeCasts_S256x64x16_S256x16x4x16 reduces_S256x16x4x16_S256x16x16 shapeCasts_S256x16x16_S1x256x16x16
    (.inl rfl) rfl (.inl rfl) rfl u c i j z

/-- The printed index maps, decided over the grid: the input block and the output block of a point have the same
    batch and channel-block indices, and both start at row and column zero. -/
theorem idx_facts : ∀ t : Fin cfg1.N,
    win1_0.index t (0 : Fin 4) = win1_1.index t (0 : Fin 4) ∧ win1_0.index t (1 : Fin 4) = win1_1.index t (1 : Fin 4)
    ∧ win1_0.index t (2 : Fin 4) = 0 ∧ win1_0.index t (3 : Fin 4) = 0
    ∧ win1_1.index t (2 : Fin 4) = 0 ∧ win1_1.index t (3 : Fin 4) = 0
    ∧ win1_1.index t (0 : Fin 4) ≤ 1 ∧ win1_1.index t (1 : Fin 4) ≤ 15 :=
  (by decide +kernel : ∀ t : Fin grid1.N, _)

/-- Every block of the output is some point's. -/
theorem idx_onto : ∀ (q0 : Fin 2) (q1 : Fin 16), ∃ t : Fin cfg1.N, win1_1.index t = ![q0.val, q1.val, 0, 0] :=
  (by decide +kernel : ∀ (q0 : Fin 2) (q1 : Fin 16), ∃ t : Fin grid1.N, win1_1.index t = ![q0.val, q1.val, 0, 0])

/-- The input block at a point is the input array read under the block. -/
theorem iblk_apply (c : Dev nD) (t : Fin cfg1.N) (y : S1x256x64x64.Idx) :
    iblk1 V c 0 t y = V c main_arg1 (((cfg1.win 0).blk t).view.emb y) := rfl

/-- WHAT A POINT WRITES BACK is its block of any array `G` that is the pooling of the input array. -/
theorem flushed_eq (c : Dev nD) (G : S2x4096x16x16.Idx → EReal)
    (hG : IsPool 4 (B := 2) (C := 4096) (H := 64) (W := 64) (Hk := 16) (Wk := 16) (V c main_arg1) G) (t : Fin cfg1.N) :
    (dat1 V c).flushed 1 t = ((cfg1.win 1).blk t).view.read (Elt Ideal) G := by
  show (cfg1.win 1).cut (grid1.coords t) ((dat1 V c).after 1 t) = _
  rw [after1_1]
  unfold out1_1
  rw [View.canon_unit_zero hz]
  simp only [View.ld_unit_zero (S := S1x256x64x64) hz]
  obtain ⟨e0, e1, e2, e3, e4, e5, e6, e7⟩ := idx_facts t
  funext y
  obtain ⟨u, cc, i, j, rfl⟩ : ∃ (u : Fin 1) (cc : Fin 256) (i j : Fin 16), y = ix4 u cc i j :=
    ⟨y 0, y 1, y 2, y 3, eq_ix4 y⟩
  show (k1_pay1 (F := Ideal) (iblk1 V c 0 t) (ix4 u cc i j) : EReal) = G (((cfg1.win 1).blk t).view.emb (ix4 u cc i j))
  refine eq_of_forall_ge_iff fun z => ?_
  refine (pay_le (iblk1 V c 0 t) u cc i j z).trans ?_
  generalize heo : ((cfg1.win 1).blk t).view.emb (ix4 u cc i j) = eo
  obtain ⟨b', c', i', j', rfl⟩ : ∃ (b' : Fin 2) (c' : Fin 4096) (i' j' : Fin 16), eo = ix4 b' c' i' j' :=
    ⟨_, _, _, _, eq_ix4 (n0 := 2) (n1 := 4096) (n2 := 16) (n3 := 16) eo⟩
  have hu : u.val = 0 := by have := u.isLt; omega
  have h0 : win1_1.index t (0 : Fin 4) * 1 + 1 * u.val = b'.val := congrArg (fun e : S2x4096x16x16.Idx => (e 0).val) heo
  have h1 : win1_1.index t (1 : Fin 4) * 256 + 1 * cc.val = c'.val := congrArg (fun e : S2x4096x16x16.Idx => (e 1).val) heo
  have h2 : win1_1.index t (2 : Fin 4) * 16 + 1 * i.val = i'.val := congrArg (fun e : S2x4096x16x16.Idx => (e 2).val) heo
  have h3 : win1_1.index t (3 : Fin 4) * 16 + 1 * j.val = j'.val := congrArg (fun e : S2x4096x16x16.Idx => (e 3).val) heo
  have hi : i'.val = i.val := by omega
  have hj : j'.val = j.val := by omega
  rw [hG b' c' i' j' z, hi, hj]
  have hin : ∀ (p q : Fin 64), iblk1 V c 0 t (ix4 (0 : Fin 1) cc p q) = V c main_arg1 (ix4 b' c' p q) := by
    intro p q
    rw [iblk_apply]
    refine congrArg (V c main_arg1) (funext fun a => Fin.ext ?_)
    match a with
    | ⟨0, _⟩ => show win1_0.index t (0 : Fin 4) * 1 + 1 * 0 = b'.val; omega
    | ⟨1, _⟩ => show win1_0.index t (1 : Fin 4) * 256 + 1 * cc.val = c'.val; omega
    | ⟨2, _⟩ => show win1_0.index t (2 : Fin 4) * 64 + 1 * p.val = p.val; omega
    | ⟨3, _⟩ => show win1_0.index t (3 : Fin 4) * 64 + 1 * q.val = q.val; omega
  exact forall_congr' fun p => forall_congr' fun q => by rw [hin p q]

/-- An index of the output array is in a point's block iff each coordinate is in the block's range on its axis. -/
theorem mem_blk (t : Fin cfg1.N) (i : S2x4096x16x16.Idx) :
    i ∈ ((cfg1.win 1).blk t).view.set ↔ ∀ a : Fin 4, win1_1.index t a * S1x256x16x16.size a ≤ (i a).val ∧ (i a).val < win1_1.index t a * S1x256x16x16.size a + S1x256x16x16.size a := by
  show i ∈ ((View.whole main_v1).slice (win1_1.rect t)).set ↔ _
  rw [View.set_slice_whole, Rect.mem_set_unit]
  exact Iff.rfl

/-- The blocks tile the output array: every index is in some point's block. -/
theorem cover (i : S2x4096x16x16.Idx) : ∃ t : Fin cfg1.N, (cfg1.win 1).flush t = true ∧ i ∈ ((cfg1.win 1).blk t).view.set := by
  have hi0 : (i 0).val < 2 := (i 0).isLt
  have hi1 : (i 1).val < 4096 := (i 1).isLt
  have hi2 : (i 2).val < 16 := (i 2).isLt
  have hi3 : (i 3).val < 16 := (i 3).isLt
  obtain ⟨t, ht⟩ := idx_onto ⟨(i 0).val, hi0⟩ ⟨(i 1).val / 256, by omega⟩
  have q0 : win1_1.index t (0 : Fin 4) = (i 0).val := congrFun ht 0
  have q1 : win1_1.index t (1 : Fin 4) = (i 1).val / 256 := congrFun ht 1
  have q2 : win1_1.index t (2 : Fin 4) = 0 := congrFun ht 2
  have q3 : win1_1.index t (3 : Fin 4) = 0 := congrFun ht 3
  refine ⟨t, flush1_1 t, ?_⟩
  rw [mem_blk]
  intro a
  match a with
  | ⟨0, _⟩ => show win1_1.index t (0 : Fin 4) * 1 ≤ (i 0).val ∧ (i 0).val < win1_1.index t (0 : Fin 4) * 1 + 1; omega
  | ⟨1, _⟩ => show win1_1.index t (1 : Fin 4) * 256 ≤ (i 1).val ∧ (i 1).val < win1_1.index t (1 : Fin 4) * 256 + 256; omega
  | ⟨2, _⟩ => show win1_1.index t (2 : Fin 4) * 16 ≤ (i 2).val ∧ (i 2).val < win1_1.index t (2 : Fin 4) * 16 + 16; omega
  | ⟨3, _⟩ => show win1_1.index t (3 : Fin 4) * 16 ≤ (i 3).val ∧ (i 3).val < win1_1.index t (3 : Fin 4) * 16 + 16; omega

/-- THE OUTPUT ARRAY after the call is the pooling of the input array as the call finds it. -/
theorem pooled (c : Dev nD) (G : S2x4096x16x16.Idx → EReal)
    (hG : IsPool 4 (B := 2) (C := 4096) (H := 64) (W := 64) (Hk := 16) (Wk := 16) (V c main_arg1) G) :
    (dat1 V c).arrAt 1 cfg1.N = G :=
  (dat1 V c).arrAt_eq_of_cover 1 G (fun t _ => flushed_eq V c G hG t) cover

end Cert.KernelIdeal.Pool1

end
-- ==== Proof.PoolBlocks2.lean ====
/-
  Pooling call 2: the array it leaves is the 8-by-8 max-pooling of its input array.

  The call walks a grid of 2 by 4 points; point (b, n) loads the block of 64 channels starting at channel
  64·n of image b, pools it with the body's two maxima, and writes the block of the same channels of the
  output back. The input and output blocks of a point sit at the same batch and channel offsets, the blocks tile
  the output, and an entry of the pooled block has the same upper bounds as the window of the input array under
  it: so the output array is the one array with the pooling property.
-/
import proofs.«136280_j69715909149112_1_alg».proof.Proof.Gen.KernelIdeal.Frame
import proofs.«136280_j69715909149112_1_alg».proof.Proof.PoolSpec
import proofs.«136280_j69715909149112_1_alg».proof.Proof.LibPoolBody

set_option maxRecDepth 16384

noncomputable section

namespace Cert.KernelIdeal.Pool2

open Cert.KernelIdeal Cert.KernelIdeal.Gen Cert.PoolTile
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0, 0, 0] : Fin 4 → Nat) = fun _ => 0 := funext fun a => by fin_cases a <;> rfl

/-- The body's payload by its upper bounds: the entry at (c, i, j) is below `z` iff the window of the loaded block is. -/
theorem pay_le (x0 : Vec Ideal S1x64x128x128 .f32) (u : Fin 1) (c : Fin 64) (i j : Fin 16) (z : EReal) :
    (k2_pay1 (F := Ideal) x0 (ix4 u c i j) : EReal) ≤ z
      ↔ ∀ (p : Fin 128) (q : Fin 128), p.val / 8 = i.val → q.val / 8 = j.val → (x0 (ix4 (0 : Fin 1) c p q) : EReal) ≤ z :=
  pool_body_le (C := 64) (Hk := 16) (Wk := 16) (k := 8) (H := 128) (W := 128) rfl rfl x0
    shapeCasts_S1x64x128x128_S64x128x128 shapeCasts_S64x128x128_S64x128x16x8 reduces_S64x128x16x8_S64x128x16
    shapeCasts_S64x128x16_S64x16x8x16 reduces_S64x16x8x16_S64x16x16 shapeCasts_S64x16x16_S1x64x16x16
    (.inl rfl) rfl (.inl rfl) rfl u c i j z

/-- The printed index maps, decided over the grid: the input block and the output block of a point have the same
    batch and channel-block indices, and both start at row and column zero. -/
theorem idx_facts : ∀ t : Fin cfg2.N,
    win2_0.index t (0 : Fin 4) = win2_1.index t (0 : Fin 4) ∧ win2_0.index t (1 : Fin 4) = win2_1.index t (1 : Fin 4)
    ∧ win2_0.index t (2 : Fin 4) = 0 ∧ win2_0.index t (3 : Fin 4) = 0
    ∧ win2_1.index t (2 : Fin 4) = 0 ∧ win2_1.index t (3 : Fin 4) = 0
    ∧ win2_1.index t (0 : Fin 4) ≤ 1 ∧ win2_1.index t (1 : Fin 4) ≤ 3 :=
  (by decide +kernel : ∀ t : Fin grid2.N, _)

/-- Every block of the output is some point's. -/
theorem idx_onto : ∀ (q0 : Fin 2) (q1 : Fin 4), ∃ t : Fin cfg2.N, win2_1.index t = ![q0.val, q1.val, 0, 0] :=
  (by decide +kernel : ∀ (q0 : Fin 2) (q1 : Fin 4), ∃ t : Fin grid2.N, win2_1.index t = ![q0.val, q1.val, 0, 0])

/-- The input block at a point is the input array read under the block. -/
theorem iblk_apply (c : Dev nD) (t : Fin cfg2.N) (y : S1x64x128x128.Idx) :
    iblk2 V c 0 t y = V c main_arg2 (((cfg2.win 0).blk t).view.emb y) := rfl

/-- WHAT A POINT WRITES BACK is its block of any array `G` that is the pooling of the input array. -/
theorem flushed_eq (c : Dev nD) (G : S2x256x16x16.Idx → EReal)
    (hG : IsPool 8 (B := 2) (C := 256) (H := 128) (W := 128) (Hk := 16) (Wk := 16) (V c main_arg2) G) (t : Fin cfg2.N) :
    (dat2 V c).flushed 1 t = ((cfg2.win 1).blk t).view.read (Elt Ideal) G := by
  show (cfg2.win 1).cut (grid2.coords t) ((dat2 V c).after 1 t) = _
  rw [after2_1]
  unfold out2_1
  rw [View.canon_unit_zero hz]
  simp only [View.ld_unit_zero (S := S1x64x128x128) hz]
  obtain ⟨e0, e1, e2, e3, e4, e5, e6, e7⟩ := idx_facts t
  funext y
  obtain ⟨u, cc, i, j, rfl⟩ : ∃ (u : Fin 1) (cc : Fin 64) (i j : Fin 16), y = ix4 u cc i j :=
    ⟨y 0, y 1, y 2, y 3, eq_ix4 y⟩
  show (k2_pay1 (F := Ideal) (iblk2 V c 0 t) (ix4 u cc i j) : EReal) = G (((cfg2.win 1).blk t).view.emb (ix4 u cc i j))
  refine eq_of_forall_ge_iff fun z => ?_
  refine (pay_le (iblk2 V c 0 t) u cc i j z).trans ?_
  generalize heo : ((cfg2.win 1).blk t).view.emb (ix4 u cc i j) = eo
  obtain ⟨b', c', i', j', rfl⟩ : ∃ (b' : Fin 2) (c' : Fin 256) (i' j' : Fin 16), eo = ix4 b' c' i' j' :=
    ⟨_, _, _, _, eq_ix4 (n0 := 2) (n1 := 256) (n2 := 16) (n3 := 16) eo⟩
  have hu : u.val = 0 := by have := u.isLt; omega
  have h0 : win2_1.index t (0 : Fin 4) * 1 + 1 * u.val = b'.val := congrArg (fun e : S2x256x16x16.Idx => (e 0).val) heo
  have h1 : win2_1.index t (1 : Fin 4) * 64 + 1 * cc.val = c'.val := congrArg (fun e : S2x256x16x16.Idx => (e 1).val) heo
  have h2 : win2_1.index t (2 : Fin 4) * 16 + 1 * i.val = i'.val := congrArg (fun e : S2x256x16x16.Idx => (e 2).val) heo
  have h3 : win2_1.index t (3 : Fin 4) * 16 + 1 * j.val = j'.val := congrArg (fun e : S2x256x16x16.Idx => (e 3).val) heo
  have hi : i'.val = i.val := by omega
  have hj : j'.val = j.val := by omega
  rw [hG b' c' i' j' z, hi, hj]
  have hin : ∀ (p q : Fin 128), iblk2 V c 0 t (ix4 (0 : Fin 1) cc p q) = V c main_arg2 (ix4 b' c' p q) := by
    intro p q
    rw [iblk_apply]
    refine congrArg (V c main_arg2) (funext fun a => Fin.ext ?_)
    match a with
    | ⟨0, _⟩ => show win2_0.index t (0 : Fin 4) * 1 + 1 * 0 = b'.val; omega
    | ⟨1, _⟩ => show win2_0.index t (1 : Fin 4) * 64 + 1 * cc.val = c'.val; omega
    | ⟨2, _⟩ => show win2_0.index t (2 : Fin 4) * 128 + 1 * p.val = p.val; omega
    | ⟨3, _⟩ => show win2_0.index t (3 : Fin 4) * 128 + 1 * q.val = q.val; omega
  exact forall_congr' fun p => forall_congr' fun q => by rw [hin p q]

/-- An index of the output array is in a point's block iff each coordinate is in the block's range on its axis. -/
theorem mem_blk (t : Fin cfg2.N) (i : S2x256x16x16.Idx) :
    i ∈ ((cfg2.win 1).blk t).view.set ↔ ∀ a : Fin 4, win2_1.index t a * S1x64x16x16.size a ≤ (i a).val ∧ (i a).val < win2_1.index t a * S1x64x16x16.size a + S1x64x16x16.size a := by
  show i ∈ ((View.whole main_v2).slice (win2_1.rect t)).set ↔ _
  rw [View.set_slice_whole, Rect.mem_set_unit]
  exact Iff.rfl

/-- The blocks tile the output array: every index is in some point's block. -/
theorem cover (i : S2x256x16x16.Idx) : ∃ t : Fin cfg2.N, (cfg2.win 1).flush t = true ∧ i ∈ ((cfg2.win 1).blk t).view.set := by
  have hi0 : (i 0).val < 2 := (i 0).isLt
  have hi1 : (i 1).val < 256 := (i 1).isLt
  have hi2 : (i 2).val < 16 := (i 2).isLt
  have hi3 : (i 3).val < 16 := (i 3).isLt
  obtain ⟨t, ht⟩ := idx_onto ⟨(i 0).val, hi0⟩ ⟨(i 1).val / 64, by omega⟩
  have q0 : win2_1.index t (0 : Fin 4) = (i 0).val := congrFun ht 0
  have q1 : win2_1.index t (1 : Fin 4) = (i 1).val / 64 := congrFun ht 1
  have q2 : win2_1.index t (2 : Fin 4) = 0 := congrFun ht 2
  have q3 : win2_1.index t (3 : Fin 4) = 0 := congrFun ht 3
  refine ⟨t, flush2_1 t, ?_⟩
  rw [mem_blk]
  intro a
  match a with
  | ⟨0, _⟩ => show win2_1.index t (0 : Fin 4) * 1 ≤ (i 0).val ∧ (i 0).val < win2_1.index t (0 : Fin 4) * 1 + 1; omega
  | ⟨1, _⟩ => show win2_1.index t (1 : Fin 4) * 64 ≤ (i 1).val ∧ (i 1).val < win2_1.index t (1 : Fin 4) * 64 + 64; omega
  | ⟨2, _⟩ => show win2_1.index t (2 : Fin 4) * 16 ≤ (i 2).val ∧ (i 2).val < win2_1.index t (2 : Fin 4) * 16 + 16; omega
  | ⟨3, _⟩ => show win2_1.index t (3 : Fin 4) * 16 ≤ (i 3).val ∧ (i 3).val < win2_1.index t (3 : Fin 4) * 16 + 16; omega

/-- THE OUTPUT ARRAY after the call is the pooling of the input array as the call finds it. -/
theorem pooled (c : Dev nD) (G : S2x256x16x16.Idx → EReal)
    (hG : IsPool 8 (B := 2) (C := 256) (H := 128) (W := 128) (Hk := 16) (Wk := 16) (V c main_arg2) G) :
    (dat2 V c).arrAt 1 cfg2.N = G :=
  (dat2 V c).arrAt_eq_of_cover 1 G (fun t _ => flushed_eq V c G hG t) cover

end Cert.KernelIdeal.Pool2

end
-- ==== Proof.PoolBlocks3.lean ====
/-
  Pooling call 3: the array it leaves is the 16-by-16 max-pooling of its input array.

  The call walks a grid of 2 by 1 points; point (b, n) loads the block of 1 channel starting at channel
  1·n of image b, pools it with the body's two maxima, and writes the block of the same channels of the
  output back. The input and output blocks of a point sit at the same batch and channel offsets, the blocks tile
  the output, and an entry of the pooled block has the same upper bounds as the window of the input array under
  it: so the output array is the one array with the pooling property.
-/
import proofs.«136280_j69715909149112_1_alg».proof.Proof.Gen.KernelIdeal.Frame
import proofs.«136280_j69715909149112_1_alg».proof.Proof.PoolSpec
import proofs.«136280_j69715909149112_1_alg».proof.Proof.LibPoolBody

set_option maxRecDepth 16384

noncomputable section

namespace Cert.KernelIdeal.Pool3

open Cert.KernelIdeal Cert.KernelIdeal.Gen Cert.PoolTile
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0, 0, 0] : Fin 4 → Nat) = fun _ => 0 := funext fun a => by fin_cases a <;> rfl

/-- The body's payload by its upper bounds: the entry at (c, i, j) is below `z` iff the window of the loaded block is. -/
theorem pay_le (x0 : Vec Ideal S1x1x256x256 .f32) (u : Fin 1) (c : Fin 1) (i j : Fin 16) (z : EReal) :
    (k3_pay1 (F := Ideal) x0 (ix4 u c i j) : EReal) ≤ z
      ↔ ∀ (p : Fin 256) (q : Fin 256), p.val / 16 = i.val → q.val / 16 = j.val → (x0 (ix4 (0 : Fin 1) c p q) : EReal) ≤ z :=
  pool_body_le (C := 1) (Hk := 16) (Wk := 16) (k := 16) (H := 256) (W := 256) rfl rfl x0
    shapeCasts_S1x1x256x256_S1x256x256 shapeCasts_S1x256x256_S1x256x16x16 reduces_S1x256x16x16_S1x256x16
    shapeCasts_S1x256x16_S1x16x16x16 reduces_S1x16x16x16_S1x16x16 shapeCasts_S1x16x16_S1x1x16x16
    (.inl rfl) rfl (.inl rfl) rfl u c i j z

/-- The printed index maps, decided over the grid: the input block and the output block of a point have the same
    batch and channel-block indices, and both start at row and column zero. -/
theorem idx_facts : ∀ t : Fin cfg3.N,
    win3_0.index t (0 : Fin 4) = win3_1.index t (0 : Fin 4) ∧ win3_0.index t (1 : Fin 4) = win3_1.index t (1 : Fin 4)
    ∧ win3_0.index t (2 : Fin 4) = 0 ∧ win3_0.index t (3 : Fin 4) = 0
    ∧ win3_1.index t (2 : Fin 4) = 0 ∧ win3_1.index t (3 : Fin 4) = 0
    ∧ win3_1.index t (0 : Fin 4) ≤ 1 ∧ win3_1.index t (1 : Fin 4) ≤ 0 :=
  (by decide +kernel : ∀ t : Fin grid3.N, _)

/-- Every block of the output is some point's. -/
theorem idx_onto : ∀ (q0 : Fin 2) (q1 : Fin 1), ∃ t : Fin cfg3.N, win3_1.index t = ![q0.val, q1.val, 0, 0] :=
  (by decide +kernel : ∀ (q0 : Fin 2) (q1 : Fin 1), ∃ t : Fin grid3.N, win3_1.index t = ![q0.val, q1.val, 0, 0])

/-- The input block at a point is the input array read under the block. -/
theorem iblk_apply (c : Dev nD) (t : Fin cfg3.N) (y : S1x1x256x256.Idx) :
    iblk3 V c 0 t y = V c main_arg3 (((cfg3.win 0).blk t).view.emb y) := rfl

/-- WHAT A POINT WRITES BACK is its block of any array `G` that is the pooling of the input array. -/
theorem flushed_eq (c : Dev nD) (G : S2x1x16x16.Idx → EReal)
    (hG : IsPool 16 (B := 2) (C := 1) (H := 256) (W := 256) (Hk := 16) (Wk := 16) (V c main_arg3) G) (t : Fin cfg3.N) :
    (dat3 V c).flushed 1 t = ((cfg3.win 1).blk t).view.read (Elt Ideal) G := by
  show (cfg3.win 1).cut (grid3.coords t) ((dat3 V c).after 1 t) = _
  rw [after3_1]
  unfold out3_1
  rw [View.canon_unit_zero hz]
  simp only [View.ld_unit_zero (S := S1x1x256x256) hz]
  obtain ⟨e0, e1, e2, e3, e4, e5, e6, e7⟩ := idx_facts t
  funext y
  obtain ⟨u, cc, i, j, rfl⟩ : ∃ (u : Fin 1) (cc : Fin 1) (i j : Fin 16), y = ix4 u cc i j :=
    ⟨y 0, y 1, y 2, y 3, eq_ix4 y⟩
  show (k3_pay1 (F := Ideal) (iblk3 V c 0 t) (ix4 u cc i j) : EReal) = G (((cfg3.win 1).blk t).view.emb (ix4 u cc i j))
  refine eq_of_forall_ge_iff fun z => ?_
  refine (pay_le (iblk3 V c 0 t) u cc i j z).trans ?_
  generalize heo : ((cfg3.win 1).blk t).view.emb (ix4 u cc i j) = eo
  obtain ⟨b', c', i', j', rfl⟩ : ∃ (b' : Fin 2) (c' : Fin 1) (i' j' : Fin 16), eo = ix4 b' c' i' j' :=
    ⟨_, _, _, _, eq_ix4 (n0 := 2) (n1 := 1) (n2 := 16) (n3 := 16) eo⟩
  have hu : u.val = 0 := by have := u.isLt; omega
  have h0 : win3_1.index t (0 : Fin 4) * 1 + 1 * u.val = b'.val := congrArg (fun e : S2x1x16x16.Idx => (e 0).val) heo
  have h1 : win3_1.index t (1 : Fin 4) * 1 + 1 * cc.val = c'.val := congrArg (fun e : S2x1x16x16.Idx => (e 1).val) heo
  have h2 : win3_1.index t (2 : Fin 4) * 16 + 1 * i.val = i'.val := congrArg (fun e : S2x1x16x16.Idx => (e 2).val) heo
  have h3 : win3_1.index t (3 : Fin 4) * 16 + 1 * j.val = j'.val := congrArg (fun e : S2x1x16x16.Idx => (e 3).val) heo
  have hi : i'.val = i.val := by omega
  have hj : j'.val = j.val := by omega
  rw [hG b' c' i' j' z, hi, hj]
  have hin : ∀ (p q : Fin 256), iblk3 V c 0 t (ix4 (0 : Fin 1) cc p q) = V c main_arg3 (ix4 b' c' p q) := by
    intro p q
    rw [iblk_apply]
    refine congrArg (V c main_arg3) (funext fun a => Fin.ext ?_)
    match a with
    | ⟨0, _⟩ => show win3_0.index t (0 : Fin 4) * 1 + 1 * 0 = b'.val; omega
    | ⟨1, _⟩ => show win3_0.index t (1 : Fin 4) * 1 + 1 * cc.val = c'.val; omega
    | ⟨2, _⟩ => show win3_0.index t (2 : Fin 4) * 256 + 1 * p.val = p.val; omega
    | ⟨3, _⟩ => show win3_0.index t (3 : Fin 4) * 256 + 1 * q.val = q.val; omega
  exact forall_congr' fun p => forall_congr' fun q => by rw [hin p q]

/-- An index of the output array is in a point's block iff each coordinate is in the block's range on its axis. -/
theorem mem_blk (t : Fin cfg3.N) (i : S2x1x16x16.Idx) :
    i ∈ ((cfg3.win 1).blk t).view.set ↔ ∀ a : Fin 4, win3_1.index t a * S1x1x16x16.size a ≤ (i a).val ∧ (i a).val < win3_1.index t a * S1x1x16x16.size a + S1x1x16x16.size a := by
  show i ∈ ((View.whole main_v3).slice (win3_1.rect t)).set ↔ _
  rw [View.set_slice_whole, Rect.mem_set_unit]
  exact Iff.rfl

/-- The blocks tile the output array: every index is in some point's block. -/
theorem cover (i : S2x1x16x16.Idx) : ∃ t : Fin cfg3.N, (cfg3.win 1).flush t = true ∧ i ∈ ((cfg3.win 1).blk t).view.set := by
  have hi0 : (i 0).val < 2 := (i 0).isLt
  have hi1 : (i 1).val < 1 := (i 1).isLt
  have hi2 : (i 2).val < 16 := (i 2).isLt
  have hi3 : (i 3).val < 16 := (i 3).isLt
  obtain ⟨t, ht⟩ := idx_onto ⟨(i 0).val, hi0⟩ ⟨(i 1).val / 1, by omega⟩
  have q0 : win3_1.index t (0 : Fin 4) = (i 0).val := congrFun ht 0
  have q1 : win3_1.index t (1 : Fin 4) = (i 1).val / 1 := congrFun ht 1
  have q2 : win3_1.index t (2 : Fin 4) = 0 := congrFun ht 2
  have q3 : win3_1.index t (3 : Fin 4) = 0 := congrFun ht 3
  refine ⟨t, flush3_1 t, ?_⟩
  rw [mem_blk]
  intro a
  match a with
  | ⟨0, _⟩ => show win3_1.index t (0 : Fin 4) * 1 ≤ (i 0).val ∧ (i 0).val < win3_1.index t (0 : Fin 4) * 1 + 1; omega
  | ⟨1, _⟩ => show win3_1.index t (1 : Fin 4) * 1 ≤ (i 1).val ∧ (i 1).val < win3_1.index t (1 : Fin 4) * 1 + 1; omega
  | ⟨2, _⟩ => show win3_1.index t (2 : Fin 4) * 16 ≤ (i 2).val ∧ (i 2).val < win3_1.index t (2 : Fin 4) * 16 + 16; omega
  | ⟨3, _⟩ => show win3_1.index t (3 : Fin 4) * 16 ≤ (i 3).val ∧ (i 3).val < win3_1.index t (3 : Fin 4) * 16 + 16; omega

/-- THE OUTPUT ARRAY after the call is the pooling of the input array as the call finds it. -/
theorem pooled (c : Dev nD) (G : S2x1x16x16.Idx → EReal)
    (hG : IsPool 16 (B := 2) (C := 1) (H := 256) (W := 256) (Hk := 16) (Wk := 16) (V c main_arg3) G) :
    (dat3 V c).arrAt 1 cfg3.N = G :=
  (dat3 V c).arrAt_eq_of_cover 1 G (fun t _ => flushed_eq V c G hG t) cover

end Cert.KernelIdeal.Pool3

end
-- ==== Proof.CombineBody.lean ====
/-
  The combine kernel's arithmetic at one entry of its block.

  The body adds five [1024, 16, 16] blocks in a fixed order — the first two as loaded, the third a [256, 16, 16]
  block laid four times along the channel axis (so channel `c` reads channel `c mod 256`), the fourth a single
  [1, 16, 16] image repeated on every channel, the fifth as loaded — and takes the maximum with zero.
-/
import proofs.«136280_j69715909149112_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Combine

open Cert.KernelIdeal Cert.KernelIdeal.Gen Idealize.ShloMosaic Idealize.ShloMosaic.ValueIdx

/-- The four-fold concatenation of one [256, 16, 16] block along the channel axis reads channel `c mod 256`. -/
theorem tile4_apply (v : FVec Ideal S256x16x16 .f32) (c : Fin 1024) (i j : Fin 16) :
    concatenate S1024x16x16 0 [⟨S256x16x16, v⟩, ⟨S256x16x16, v⟩, ⟨S256x16x16, v⟩, ⟨S256x16x16, v⟩]
        concatenates_S256x16x16_S256x16x16_S256x16x16_S256x16x16_S1024x16x16_d0 (ix3 c i j)
      = v (ix3 (⟨c.val % 256, Nat.mod_lt _ (by decide)⟩ : Fin 256) i j) := by
  refine concatenate_replicate_apply (t := S1024x16x16) (s₁ := S256x16x16) 0 4 v
    concatenates_S256x16x16_S256x16x16_S256x16x16_S256x16x16_S1024x16x16_d0 rfl (ix3 c i j) _ rfl ?_
  intro b hb
  match b with
  | ⟨0, _⟩ => exact absurd rfl hb
  | ⟨1, _⟩ => rfl
  | ⟨2, _⟩ => rfl

/-- A single [1, 16, 16] image repeated on 1024 channels reads the image. -/
theorem spread_apply (v : FVec Ideal S1x16x16 .f32) (c : Fin 1024) (i j : Fin 16) :
    broadcastTo S1024x16x16 v broadcasts_S1x16x16_S1024x16x16 (ix3 c i j) = v (ix3 (0 : Fin 1) i j) := by
  refine broadcastTo_apply v broadcasts_S1x16x16_S1024x16x16 (ix3 c i j) (ix3 (0 : Fin 1) i j) ?_
  intro a
  match a with
  | ⟨0, _⟩ => rfl
  | ⟨1, _⟩ => rfl
  | ⟨2, _⟩ => rfl

/-- The body's payload at an entry: the relu of the five-term sum. -/
theorem pay_apply (v0 v2 : Vec Ideal S1x1024x16x16 .f32) (v4 : Vec Ideal S1x256x16x16 .f32) (v6 : Vec Ideal S1x1x16x16 .f32)
    (v8 : Vec Ideal S1x1024x16x16 .f32) (u : Fin 1) (c : Fin 1024) (i j : Fin 16) :
    (k4_pay1 (F := Ideal) v0 v2 v4 v6 v8 (ix4 u c i j) : EReal)
      = max (((((v0 (ix4 (0 : Fin 1) c i j) : EReal) + v2 (ix4 (0 : Fin 1) c i j))
          + v4 (ix4 (0 : Fin 1) (⟨c.val % 256, Nat.mod_lt _ (by decide)⟩ : Fin 256) i j))
          + v6 (ix4 (0 : Fin 1) (0 : Fin 1) i j))
          + v8 (ix4 (0 : Fin 1) c i j)) 0 := by
  unfold k4_pay1
  refine (shapeCast_abc_1abc_apply _ shapeCasts_S1024x16x16_S1x1024x16x16 u c i j).trans ?_
  rw [maximumf_apply, addf_apply, addf_apply, addf_apply, addf_apply, broadcast_apply, tile4_apply, spread_apply]
  rw [shapeCast_self, shapeCast_1abc_abc_apply, shapeCast_1abc_abc_apply, shapeCast_1abc_abc_apply,
    shapeCast_1abc_abc_apply, shapeCast_1abc_abc_apply]
  rw [show (Scalar.ofBits (F := Ideal) .f32 0x00000000#32 : EReal) = 0 from Ideal.ofBits_zero_f32]

end Cert.KernelIdeal.Combine

end
-- ==== Proof.CombineBlocks.lean ====
/-
  The combine call: the array it leaves is the relu of the tiled five-term sum of the arrays it finds.

  The call walks a grid of 2 by 32 points; point (b, n) writes the block of channels 1024·n … 1024·n + 1023 of image b.
  Its first two operands are read in blocks whose channel-block index is n mod 16 and n mod 4 — the tiling of a
  16384- and a 4096-channel array up to 32768 channels —, the third (256 channels) and fourth (one channel) whole per
  image, the fifth and the result at block n. So channel c = 1024·n + r of the result reads channels c mod 16384,
  c mod 4096, r mod 256 = c mod 256 and 0 of the four pooled arrays, and channel c of the fifth.
-/
import proofs.«136280_j69715909149112_1_alg».proof.Proof.Gen.KernelIdeal.Frame
import proofs.«136280_j69715909149112_1_alg».proof.Proof.PoolSpec
import proofs.«136280_j69715909149112_1_alg».proof.Proof.CombineBody

set_option maxRecDepth 16384

noncomputable section

namespace Cert.KernelIdeal.Combine

open Cert.KernelIdeal Cert.KernelIdeal.Gen Cert.PoolTile
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0, 0, 0] : Fin 4 → Nat) = fun _ => 0 := funext fun a => by fin_cases a <;> rfl

/-- The printed index maps, decided over the grid: batch indices agree, the first two operands' channel-block
    indices are the result's modulo 16 and modulo 4, the third and fourth operands' are zero, the fifth's is the
    result's, and every block starts at row and column zero. -/
theorem idx_facts : ∀ t : Fin cfg4.N,
    win4_0.index t (0 : Fin 4) = win4_5.index t (0 : Fin 4) ∧ win4_0.index t (1 : Fin 4) = win4_5.index t (1 : Fin 4) % 16
    ∧ win4_0.index t (2 : Fin 4) = 0 ∧ win4_0.index t (3 : Fin 4) = 0
    ∧ win4_1.index t (0 : Fin 4) = win4_5.index t (0 : Fin 4) ∧ win4_1.index t (1 : Fin 4) = win4_5.index t (1 : Fin 4) % 4
    ∧ win4_1.index t (2 : Fin 4) = 0 ∧ win4_1.index t (3 : Fin 4) = 0
    ∧ win4_2.index t (0 : Fin 4) = win4_5.index t (0 : Fin 4) ∧ win4_2.index t (1 : Fin 4) = 0
    ∧ win4_2.index t (2 : Fin 4) = 0 ∧ win4_2.index t (3 : Fin 4) = 0
    ∧ win4_3.index t (0 : Fin 4) = win4_5.index t (0 : Fin 4) ∧ win4_3.index t (1 : Fin 4) = 0
    ∧ win4_3.index t (2 : Fin 4) = 0 ∧ win4_3.index t (3 : Fin 4) = 0
    ∧ win4_4.index t (0 : Fin 4) = win4_5.index t (0 : Fin 4) ∧ win4_4.index t (1 : Fin 4) = win4_5.index t (1 : Fin 4)
    ∧ win4_4.index t (2 : Fin 4) = 0 ∧ win4_4.index t (3 : Fin 4) = 0
    ∧ win4_5.index t (2 : Fin 4) = 0 ∧ win4_5.index t (3 : Fin 4) = 0
    ∧ win4_5.index t (0 : Fin 4) ≤ 1 ∧ win4_5.index t (1 : Fin 4) ≤ 31 :=
  (by decide +kernel : ∀ t : Fin grid4.N, _)

/-- Every block of the result is some point's. -/
theorem idx_onto : ∀ (q0 : Fin 2) (q1 : Fin 32), ∃ t : Fin cfg4.N, win4_5.index t = ![q0.val, q1.val, 0, 0] :=
  (by decide +kernel : ∀ (q0 : Fin 2) (q1 : Fin 32), ∃ t : Fin grid4.N, win4_5.index t = ![q0.val, q1.val, 0, 0])

/-- Each operand's block at a point is the operand's array read under the block. -/
theorem iblk0_apply (c : Dev nD) (t : Fin cfg4.N) (y : S1x1024x16x16.Idx) :
    iblk4 V c 0 t y = V c main_v0 (((cfg4.win 0).blk t).view.emb y) := rfl
theorem iblk1_apply (c : Dev nD) (t : Fin cfg4.N) (y : S1x1024x16x16.Idx) :
    iblk4 V c 1 t y = V c main_v1 (((cfg4.win 1).blk t).view.emb y) := rfl
theorem iblk2_apply (c : Dev nD) (t : Fin cfg4.N) (y : S1x256x16x16.Idx) :
    iblk4 V c 2 t y = V c main_v2 (((cfg4.win 2).blk t).view.emb y) := rfl
theorem iblk3_apply (c : Dev nD) (t : Fin cfg4.N) (y : S1x1x16x16.Idx) :
    iblk4 V c 3 t y = V c main_v3 (((cfg4.win 3).blk t).view.emb y) := rfl
theorem iblk4_apply (c : Dev nD) (t : Fin cfg4.N) (y : S1x1024x16x16.Idx) :
    iblk4 V c 4 t y = V c main_arg4 (((cfg4.win 4).blk t).view.emb y) := rfl

/-- WHAT A POINT WRITES BACK is its block of `combine` of the five arrays as the call finds them. -/
theorem flushed_eq (c : Dev nD) (t : Fin cfg4.N) :
    (dat4 V c).flushed 5 t = ((cfg4.win 5).blk t).view.read (Elt Ideal)
      (combine (V c main_v0) (V c main_v1) (V c main_v2) (V c main_v3) (V c main_arg4)) := by
  show (cfg4.win 5).cut (grid4.coords t) ((dat4 V c).after 5 t) = _
  rw [after4_5]
  unfold out4_5
  rw [View.canon_unit_zero hz]
  simp only [View.ld_unit_zero (S := S1x1024x16x16) hz, View.ld_unit_zero (S := S1x256x16x16) hz,
    View.ld_unit_zero (S := S1x1x16x16) hz]
  obtain ⟨a00, a01, a02, a03, a10, a11, a12, a13, a20, a21, a22, a23, a30, a31, a32, a33, a40, a41, a42, a43, a52, a53, a50, a51⟩ :=
    idx_facts t
  funext y
  obtain ⟨u, cc, i, j, rfl⟩ : ∃ (u : Fin 1) (cc : Fin 1024) (i j : Fin 16), y = ix4 u cc i j :=
    ⟨y 0, y 1, y 2, y 3, eq_ix4 y⟩
  show (k4_pay1 (F := Ideal) (iblk4 V c 0 t) (iblk4 V c 1 t) (iblk4 V c 2 t) (iblk4 V c 3 t) (iblk4 V c 4 t) (ix4 u cc i j) : EReal)
    = combine (V c main_v0) (V c main_v1) (V c main_v2) (V c main_v3) (V c main_arg4) (((cfg4.win 5).blk t).view.emb (ix4 u cc i j))
  rw [pay_apply]
  generalize heo : ((cfg4.win 5).blk t).view.emb (ix4 u cc i j) = eo
  obtain ⟨b', c', i', j', rfl⟩ : ∃ (b' : Fin 2) (c' : Fin 32768) (i' j' : Fin 16), eo = ix4 b' c' i' j' :=
    ⟨_, _, _, _, eq_ix4 (n0 := 2) (n1 := 32768) (n2 := 16) (n3 := 16) eo⟩
  have hu : u.val = 0 := by have := u.isLt; omega
  have hcc : cc.val < 1024 := cc.isLt
  have h0 : win4_5.index t (0 : Fin 4) * 1 + 1 * u.val = b'.val := congrArg (fun e : S2x32768x16x16.Idx => (e 0).val) heo
  have h1 : win4_5.index t (1 : Fin 4) * 1024 + 1 * cc.val = c'.val := congrArg (fun e : S2x32768x16x16.Idx => (e 1).val) heo
  have h2 : win4_5.index t (2 : Fin 4) * 16 + 1 * i.val = i'.val := congrArg (fun e : S2x32768x16x16.Idx => (e 2).val) heo
  have h3 : win4_5.index t (3 : Fin 4) * 16 + 1 * j.val = j'.val := congrArg (fun e : S2x32768x16x16.Idx => (e 3).val) heo
  rw [combine_apply]
  have r0 : iblk4 V c 0 t (ix4 (0 : Fin 1) cc i j)
      = V c main_v0 (ix4 b' (⟨c'.val % 16384, Nat.mod_lt _ (by decide)⟩ : Fin 16384) i' j') := by
    rw [iblk0_apply]
    refine congrArg (V c main_v0) (funext fun a => Fin.ext ?_)
    match a with
    | ⟨0, _⟩ => show win4_0.index t (0 : Fin 4) * 1 + 1 * 0 = b'.val; omega
    | ⟨1, _⟩ => show win4_0.index t (1 : Fin 4) * 1024 + 1 * cc.val = c'.val % 16384; omega
    | ⟨2, _⟩ => show win4_0.index t (2 : Fin 4) * 16 + 1 * i.val = i'.val; omega
    | ⟨3, _⟩ => show win4_0.index t (3 : Fin 4) * 16 + 1 * j.val = j'.val; omega
  have r1 : iblk4 V c 1 t (ix4 (0 : Fin 1) cc i j)
      = V c main_v1 (ix4 b' (⟨c'.val % 4096, Nat.mod_lt _ (by decide)⟩ : Fin 4096) i' j') := by
    rw [iblk1_apply]
    refine congrArg (V c main_v1) (funext fun a => Fin.ext ?_)
    match a with
    | ⟨0, _⟩ => show win4_1.index t (0 : Fin 4) * 1 + 1 * 0 = b'.val; omega
    | ⟨1, _⟩ => show win4_1.index t (1 : Fin 4) * 1024 + 1 * cc.val = c'.val % 4096; omega
    | ⟨2, _⟩ => show win4_1.index t (2 : Fin 4) * 16 + 1 * i.val = i'.val; omega
    | ⟨3, _⟩ => show win4_1.index t (3 : Fin 4) * 16 + 1 * j.val = j'.val; omega
  have r2 : iblk4 V c 2 t (ix4 (0 : Fin 1) (⟨cc.val % 256, Nat.mod_lt _ (by decide)⟩ : Fin 256) i j)
      = V c main_v2 (ix4 b' (⟨c'.val % 256, Nat.mod_lt _ (by decide)⟩ : Fin 256) i' j') := by
    rw [iblk2_apply]
    refine congrArg (V c main_v2) (funext fun a => Fin.ext ?_)
    match a with
    | ⟨0, _⟩ => show win4_2.index t (0 : Fin 4) * 1 + 1 * 0 = b'.val; omega
    | ⟨1, _⟩ => show win4_2.index t (1 : Fin 4) * 256 + 1 * (cc.val % 256) = c'.val % 256; omega
    | ⟨2, _⟩ => show win4_2.index t (2 : Fin 4) * 16 + 1 * i.val = i'.val; omega
    | ⟨3, _⟩ => show win4_2.index t (3 : Fin 4) * 16 + 1 * j.val = j'.val; omega
  have r3 : iblk4 V c 3 t (ix4 (0 : Fin 1) (0 : Fin 1) i j)
      = V c main_v3 (ix4 b' (0 : Fin 1) i' j') := by
    rw [iblk3_apply]
    refine congrArg (V c main_v3) (funext fun a => Fin.ext ?_)
    match a with
    | ⟨0, _⟩ => show win4_3.index t (0 : Fin 4) * 1 + 1 * 0 = b'.val; omega
    | ⟨1, _⟩ => show win4_3.index t (1 : Fin 4) * 1 + 1 * 0 = 0; omega
    | ⟨2, _⟩ => show win4_3.index t (2 : Fin 4) * 16 + 1 * i.val = i'.val; omega
    | ⟨3, _⟩ => show win4_3.index t (3 : Fin 4) * 16 + 1 * j.val = j'.val; omega
  have r4 : iblk4 V c 4 t (ix4 (0 : Fin 1) cc i j) = V c main_arg4 (ix4 b' c' i' j') := by
    rw [iblk4_apply]
    refine congrArg (V c main_arg4) (funext fun a => Fin.ext ?_)
    match a with
    | ⟨0, _⟩ => show win4_4.index t (0 : Fin 4) * 1 + 1 * 0 = b'.val; omega
    | ⟨1, _⟩ => show win4_4.index t (1 : Fin 4) * 1024 + 1 * cc.val = c'.val; omega
    | ⟨2, _⟩ => show win4_4.index t (2 : Fin 4) * 16 + 1 * i.val = i'.val; omega
    | ⟨3, _⟩ => show win4_4.index t (3 : Fin 4) * 16 + 1 * j.val = j'.val; omega
  rw [r0, r1, r2, r3, r4]

/-- An index of the result array is in a point's block iff each coordinate is in the block's range on its axis. -/
theorem mem_blk (t : Fin cfg4.N) (i : S2x32768x16x16.Idx) :
    i ∈ ((cfg4.win 5).blk t).view.set ↔ ∀ a : Fin 4, win4_5.index t a * S1x1024x16x16.size a ≤ (i a).val ∧ (i a).val < win4_5.index t a * S1x1024x16x16.size a + S1x1024x16x16.size a := by
  show i ∈ ((View.whole main_v4).slice (win4_5.rect t)).set ↔ _
  rw [View.set_slice_whole, Rect.mem_set_unit]
  exact Iff.rfl

/-- The blocks tile the result array: every index is in some point's block. -/
theorem cover (i : S2x32768x16x16.Idx) : ∃ t : Fin cfg4.N, (cfg4.win 5).flush t = true ∧ i ∈ ((cfg4.win 5).blk t).view.set := by
  have hi0 : (i 0).val < 2 := (i 0).isLt
  have hi1 : (i 1).val < 32768 := (i 1).isLt
  have hi2 : (i 2).val < 16 := (i 2).isLt
  have hi3 : (i 3).val < 16 := (i 3).isLt
  obtain ⟨t, ht⟩ := idx_onto ⟨(i 0).val, hi0⟩ ⟨(i 1).val / 1024, by omega⟩
  have q0 : win4_5.index t (0 : Fin 4) = (i 0).val := congrFun ht 0
  have q1 : win4_5.index t (1 : Fin 4) = (i 1).val / 1024 := congrFun ht 1
  have q2 : win4_5.index t (2 : Fin 4) = 0 := congrFun ht 2
  have q3 : win4_5.index t (3 : Fin 4) = 0 := congrFun ht 3
  refine ⟨t, flush4_5 t, ?_⟩
  rw [mem_blk]
  intro a
  match a with
  | ⟨0, _⟩ => show win4_5.index t (0 : Fin 4) * 1 ≤ (i 0).val ∧ (i 0).val < win4_5.index t (0 : Fin 4) * 1 + 1; omega
  | ⟨1, _⟩ => show win4_5.index t (1 : Fin 4) * 1024 ≤ (i 1).val ∧ (i 1).val < win4_5.index t (1 : Fin 4) * 1024 + 1024; omega
  | ⟨2, _⟩ => show win4_5.index t (2 : Fin 4) * 16 ≤ (i 2).val ∧ (i 2).val < win4_5.index t (2 : Fin 4) * 16 + 16; omega
  | ⟨3, _⟩ => show win4_5.index t (3 : Fin 4) * 16 ≤ (i 3).val ∧ (i 3).val < win4_5.index t (3 : Fin 4) * 16 + 16; omega

/-- THE RESULT ARRAY after the call is `combine` of the five arrays as the call finds them. -/
theorem combined (c : Dev nD) :
    (dat4 V c).arrAt 5 cfg4.N = combine (V c main_v0) (V c main_v1) (V c main_v2) (V c main_v3) (V c main_arg4) :=
  (dat4 V c).arrAt_eq_of_cover 5 _ (fun t _ => flushed_eq V c t) cover

end Cert.KernelIdeal.Combine

end
-- ==== Proof.KernelValue.lean ====
/-
  The kernel program's result as one function of its arguments.

  Between the five calls nothing else runs, and a call changes only the arrays its windows name. So what the combine
  call finds in each pooled buffer is what the pooling call that wrote it left there — no later call touches it —,
  what each pooling call finds in its input is the launch memory's argument, and the fifth argument reaches the
  combine call as launched. With the four pooling calls' arrays characterised as poolings and the combine call's as the
  relu of the tiled sum, the result buffer ends at `combine` of ANY four arrays that are the poolings of the first
  four arguments, and the fifth argument.
-/
import proofs.«136280_j69715909149112_1_alg».proof.Proof.KernelRun
import proofs.«136280_j69715909149112_1_alg».proof.Proof.PoolBlocks0
import proofs.«136280_j69715909149112_1_alg».proof.Proof.PoolBlocks1
import proofs.«136280_j69715909149112_1_alg».proof.Proof.PoolBlocks2
import proofs.«136280_j69715909149112_1_alg».proof.Proof.PoolBlocks3
import proofs.«136280_j69715909149112_1_alg».proof.Proof.CombineBlocks

set_option maxRecDepth 16384

noncomputable section

namespace Cert.KernelIdeal.Run

open Cert.KernelIdeal Cert.KernelIdeal.Gen Cert.PoolTile
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first pooled buffer as the combine call finds it is what call 0 left. -/
theorem found_v0 (c : Dev nD) : V4 m ρ c main_v0 = (dat0 (V0 m ρ) c).arrAt 1 cfg0.N :=
  calc V4 m ρ c main_v0
    _ = W3 m ρ c (Proc.devRef .tc main_v0) := W4_of_ne m ρ c main_v0 (by decide)
    _ = W2 m ρ c (Proc.devRef .tc main_v0) := W3_of_ne m ρ c main_v0 (by decide)
    _ = W1 m ρ c (Proc.devRef .tc main_v0) := W2_of_ne m ρ c main_v0 (by decide)
    _ = (dat0 (V0 m ρ) c).arrAt 1 cfg0.N := W1_arr m ρ c 1

/-- The second pooled buffer as the combine call finds it is what call 1 left. -/
theorem found_v1 (c : Dev nD) : V4 m ρ c main_v1 = (dat1 (V1 m ρ) c).arrAt 1 cfg1.N :=
  calc V4 m ρ c main_v1
    _ = W3 m ρ c (Proc.devRef .tc main_v1) := W4_of_ne m ρ c main_v1 (by decide)
    _ = W2 m ρ c (Proc.devRef .tc main_v1) := W3_of_ne m ρ c main_v1 (by decide)
    _ = (dat1 (V1 m ρ) c).arrAt 1 cfg1.N := W2_arr m ρ c 1

/-- The third pooled buffer as the combine call finds it is what call 2 left. -/
theorem found_v2 (c : Dev nD) : V4 m ρ c main_v2 = (dat2 (V2 m ρ) c).arrAt 1 cfg2.N :=
  calc V4 m ρ c main_v2
    _ = W3 m ρ c (Proc.devRef .tc main_v2) := W4_of_ne m ρ c main_v2 (by decide)
    _ = (dat2 (V2 m ρ) c).arrAt 1 cfg2.N := W3_arr m ρ c 1

/-- The fourth pooled buffer as the combine call finds it is what call 3 left. -/
theorem found_v3 (c : Dev nD) : V4 m ρ c main_v3 = (dat3 (V3 m ρ) c).arrAt 1 cfg3.N :=
  W4_arr m ρ c 1

/-- Each call finds its argument as launched. -/
theorem found_arg0 (c : Dev nD) : V0 m ρ c main_arg0 = m ((c.tc : Thread nD τ).loc main_arg0) := rfl
theorem found_arg1 (c : Dev nD) : V1 m ρ c main_arg1 = m ((c.tc : Thread nD τ).loc main_arg1) :=
  (W1_of_ne m ρ c main_arg1 (by decide)).trans rfl
theorem found_arg2 (c : Dev nD) : V2 m ρ c main_arg2 = m ((c.tc : Thread nD τ).loc main_arg2) :=
  calc V2 m ρ c main_arg2
    _ = W1 m ρ c (Proc.devRef .tc main_arg2) := W2_of_ne m ρ c main_arg2 (by decide)
    _ = W0 m ρ c (Proc.devRef .tc main_arg2) := W1_of_ne m ρ c main_arg2 (by decide)
    _ = m ((c.tc : Thread nD τ).loc main_arg2) := rfl
theorem found_arg3 (c : Dev nD) : V3 m ρ c main_arg3 = m ((c.tc : Thread nD τ).loc main_arg3) :=
  calc V3 m ρ c main_arg3
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c.tc : Thread nD τ).loc main_arg3) := rfl
theorem found_arg4 (c : Dev nD) : V4 m ρ c main_arg4 = m ((c.tc : Thread nD τ).loc main_arg4) :=
  calc V4 m ρ c main_arg4
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c.tc : Thread nD τ).loc main_arg4) := rfl

/-- THE RESULT ARRAY: `combine` of any four arrays that are the poolings of the first four arguments, and the fifth. -/
theorem result (c : Dev nD)
    (G1 : S2x16384x16x16.Idx → EReal) (G2 : S2x4096x16x16.Idx → EReal) (G3 : S2x256x16x16.Idx → EReal) (G4 : S2x1x16x16.Idx → EReal)
    (h1 : IsPool 2 (B := 2) (C := 16384) (H := 32) (W := 32) (Hk := 16) (Wk := 16) (m ((c.tc : Thread nD τ).loc main_arg0)) G1)
    (h2 : IsPool 4 (B := 2) (C := 4096) (H := 64) (W := 64) (Hk := 16) (Wk := 16) (m ((c.tc : Thread nD τ).loc main_arg1)) G2)
    (h3 : IsPool 8 (B := 2) (C := 256) (H := 128) (W := 128) (Hk := 16) (Wk := 16) (m ((c.tc : Thread nD τ).loc main_arg2)) G3)
    (h4 : IsPool 16 (B := 2) (C := 1) (H := 256) (W := 256) (Hk := 16) (Wk := 16) (m ((c.tc : Thread nD τ).loc main_arg3)) G4) :
    (dat4 (V4 m ρ) c).arrAt 5 cfg4.N = combine G1 G2 G3 G4 (m ((c.tc : Thread nD τ).loc main_arg4)) := by
  have e0 : V4 m ρ c main_v0 = G1 :=
    (found_v0 m ρ c).trans (Pool0.pooled (V0 m ρ) c G1 (by rw [found_arg0]; exact h1))
  have e1 : V4 m ρ c main_v1 = G2 :=
    (found_v1 m ρ c).trans (Pool1.pooled (V1 m ρ) c G2 (by rw [found_arg1]; exact h2))
  have e2 : V4 m ρ c main_v2 = G3 :=
    (found_v2 m ρ c).trans (Pool2.pooled (V2 m ρ) c G3 (by rw [found_arg2]; exact h3))
  have e3 : V4 m ρ c main_v3 = G4 :=
    (found_v3 m ρ c).trans (Pool3.pooled (V3 m ρ) c G4 (by rw [found_arg3]; exact h4))
  rw [Combine.combined (V4 m ρ) c, e0, e1, e2, e3, found_arg4]

end Cert.KernelIdeal.Run

end
-- ==== Proof.LibWindowMax.lean ====
/-
  Window reductions by `max` over the extended reals, read by their upper bounds.

  * `foldl_max_le_iff`: a left fold of `max` is below a bound exactly when its starting value and every folded
    element are.
  * `reduceWindow_max_le_iff` (any rank, any window, strides and padding): an entry of a window reduction by `max` is
    below a bound exactly when the initial value and every position of the window are — a position inside the operand
    contributing the operand's element, a position in the padding the initial value. The window's positions are indexed
    by the multi-indices of the window shape; the order in which the fold visits them does not matter to a bound.
  * `reduceWindow_isPool` (rank 4, windows `[1, 1, k, k]`, strides equal to the window, no padding, initial value `⊥`):
    the entry at `[b, c, i, j]` is below a bound exactly when every `x[b, c, p, q]` with `p / k = i` and `q / k = j`
    is: the window reduction is the k-by-k max-pooling.
-/
import Idealize.ShloMosaic.PureOps.Contract
import Idealize.ShloMosaic.PureOps.Ideal
import Idealize.ShloMosaic.Lib.ValueIdx

namespace Cert.PoolTile.Ref

open Idealize.ShloMosaic Idealize.ShloMosaic.ValueIdx

/-- A left fold of `max` is below a bound exactly when its starting value and every folded element are. -/
theorem foldl_max_le_iff {ι : Type} (g : ι → EReal) (z : EReal) (l : List ι) :
    ∀ v : EReal, l.foldl (fun r n => max r (g n)) v ≤ z ↔ v ≤ z ∧ ∀ n ∈ l, g n ≤ z := by
  induction l with
  | nil => intro v; simp
  | cons a l ih =>
    intro v
    rw [List.foldl_cons, ih, max_le_iff, List.forall_mem_cons, and_assoc]

/-- An entry of a window reduction by `max` is below a bound exactly when the initial value and every position of the
    window are: the operand's element where the position is inside the operand, the initial value where it is padding. -/
theorem reduceWindow_max_le_iff {s t u : Shape} {φ : FTy} (window strides lo hi : Fin s.rank → Nat)
    (x : s.Idx → Ideal φ) (init : u.Idx → Ideal φ) (h : s.ReduceWindows window strides lo hi t) (hu : 0 < u.numel)
    (j : t.Idx) (z : EReal) :
    Host.reduceWindow (FloatOps.maximumf (F := Ideal) (φ := φ)) window strides lo hi x init h hu j ≤ z ↔
      init (Shape.Idx.first hu) ≤ z ∧ ∀ w : (⟨s.rank, window⟩ : Shape).Idx,
        (if hin : ∀ a, lo a ≤ (j (a.cast h.1.symm)).val * strides a + (w a).val
              ∧ (j (a.cast h.1.symm)).val * strides a + (w a).val - lo a < s.size a
          then x (fun a => ⟨(j (a.cast h.1.symm)).val * strides a + (w a).val - lo a, (hin a).2⟩)
          else init (Shape.Idx.first hu)) ≤ z := by
  unfold Host.reduceWindow
  refine (foldl_max_le_iff (fun n => _) z _ _).trans ?_
  refine and_congr_right fun _ => ?_
  constructor
  · intro hh w
    obtain ⟨n, rfl⟩ := (⟨s.rank, window⟩ : Shape).rowMajor.symm.surjective w
    exact hh n (List.mem_finRange _)
  · intro hh n _
    exact hh _

/-- Row `m` of `n` blocks of `k`, offset `r` within the block, is a row of the whole. -/
theorem block_lt {n k m r : Nat} (hm : m < n) (hr : r < k) : m * k + r < n * k := by
  have := Nat.mul_le_mul_right k (Nat.succ_le_of_lt hm)
  rw [Nat.succ_mul] at this
  omega

/-- The block a row lies in: `(m * k + r) / k = m` for an offset `r < k`. -/
theorem block_div {k m r : Nat} (hr : r < k) : (m * k + r) / k = m := by
  have hk : 0 < k := Nat.lt_of_le_of_lt (Nat.zero_le _) hr
  rw [Nat.add_comm, Nat.add_mul_div_right _ _ hk, Nat.div_eq_of_lt hr, Nat.zero_add]

/-- A window reduction by `max` over windows `[1, 1, k, k]` at strides `[1, 1, k, k]` without padding, from the
    initial value `⊥`, is the k-by-k max-pooling: its entry at `[b, c, i, j]` is below a bound exactly when every
    `x[b, c, p, q]` with `p / k = i` and `q / k = j` is. -/
theorem reduceWindow_isPool {B C H W Hk Wk k : Nat} {u : Shape} {φ : FTy} (hk : 0 < k) (hH : H = Hk * k) (hW : W = Wk * k)
    (x : (⟨4, ![B, C, H, W]⟩ : Shape).Idx → Ideal φ) (init : u.Idx → Ideal φ)
    (h : (⟨4, ![B, C, H, W]⟩ : Shape).ReduceWindows ![1, 1, k, k] ![1, 1, k, k] ![0, 0, 0, 0] ![0, 0, 0, 0]
      ⟨4, ![B, C, Hk, Wk]⟩)
    (hu : 0 < u.numel) (hinit : init (Shape.Idx.first hu) = ⊥)
    (b : Fin B) (c : Fin C) (i : Fin Hk) (j : Fin Wk) (z : EReal) :
    Host.reduceWindow (FloatOps.maximumf (F := Ideal) (φ := φ)) ![1, 1, k, k] ![1, 1, k, k] ![0, 0, 0, 0] ![0, 0, 0, 0]
        x init h hu (ix4 b c i j) ≤ z
      ↔ ∀ (p : Fin H) (q : Fin W), p.val / k = i.val → q.val / k = j.val → x (ix4 b c p q) ≤ z := by
  rw [reduceWindow_max_le_iff, hinit]
  refine (and_iff_right bot_le).trans ?_
  -- the coordinates of a window position, with their bounds in a form arithmetic can use
  have w0 : ∀ w : (⟨4, ![1, 1, k, k]⟩ : Shape).Idx, (w 0).val = 0 := fun w => by
    have : (w 0).val < 1 := (w 0).isLt
    omega
  have w1 : ∀ w : (⟨4, ![1, 1, k, k]⟩ : Shape).Idx, (w 1).val = 0 := fun w => by
    have : (w 1).val < 1 := (w 1).isLt
    omega
  have w2 : ∀ w : (⟨4, ![1, 1, k, k]⟩ : Shape).Idx, (w 2).val < k := fun w => (w 2).isLt
  have w3 : ∀ w : (⟨4, ![1, 1, k, k]⟩ : Shape).Idx, (w 3).val < k := fun w => (w 3).isLt
  -- every window position is inside the operand
  have inside : ∀ (w : (⟨4, ![1, 1, k, k]⟩ : Shape).Idx) (a : Fin 4),
      (![0, 0, 0, 0] : Fin 4 → Nat) a
          ≤ ((ix4 b c i j : (⟨4, ![B, C, Hk, Wk]⟩ : Shape).Idx) (a.cast h.1.symm)).val * (![1, 1, k, k] : Fin 4 → Nat) a
            + (w a).val
        ∧ ((ix4 b c i j : (⟨4, ![B, C, Hk, Wk]⟩ : Shape).Idx) (a.cast h.1.symm)).val * (![1, 1, k, k] : Fin 4 → Nat) a
            + (w a).val - (![0, 0, 0, 0] : Fin 4 → Nat) a < (⟨4, ![B, C, H, W]⟩ : Shape).size a := by
    intro w a
    match a with
    | ⟨0, _⟩ =>
      show 0 ≤ b.val * 1 + (w 0).val ∧ b.val * 1 + (w 0).val - 0 < B
      have := b.isLt; have := w0 w; omega
    | ⟨1, _⟩ =>
      show 0 ≤ c.val * 1 + (w 1).val ∧ c.val * 1 + (w 1).val - 0 < C
      have := c.isLt; have := w1 w; omega
    | ⟨2, _⟩ =>
      show 0 ≤ i.val * k + (w 2).val ∧ i.val * k + (w 2).val - 0 < H
      have := block_lt i.isLt (w2 w); omega
    | ⟨3, _⟩ =>
      show 0 ≤ j.val * k + (w 3).val ∧ j.val * k + (w 3).val - 0 < W
      have := block_lt j.isLt (w3 w); omega
  constructor
  · intro hall p q hp hq
    have hpk : p.val % k < k := Nat.mod_lt _ hk
    have hqk : q.val % k < k := Nat.mod_lt _ hk
    have hw := hall (ix4 (0 : Fin 1) (0 : Fin 1) ⟨p.val % k, hpk⟩ ⟨q.val % k, hqk⟩)
    rw [dif_pos (inside _)] at hw
    refine le_of_eq_of_le (congrArg x (funext fun a => ?_)) hw
    match a with
    | ⟨0, _⟩ => exact Fin.ext (show b.val = b.val * 1 + 0 - 0 by omega)
    | ⟨1, _⟩ => exact Fin.ext (show c.val = c.val * 1 + 0 - 0 by omega)
    | ⟨2, _⟩ =>
      refine Fin.ext (show p.val = i.val * k + p.val % k - 0 from ?_)
      have := Nat.div_add_mod p.val k
      rw [hp, Nat.mul_comm] at this
      omega
    | ⟨3, _⟩ =>
      refine Fin.ext (show q.val = j.val * k + q.val % k - 0 from ?_)
      have := Nat.div_add_mod q.val k
      rw [hq, Nat.mul_comm] at this
      omega
  · intro hall w
    rw [dif_pos (inside w)]
    refine le_of_eq_of_le (congrArg x (funext fun a => ?_))
      (hall ⟨i.val * k + (w 2).val, hH ▸ block_lt i.isLt (w2 w)⟩ ⟨j.val * k + (w 3).val, hW ▸ block_lt j.isLt (w3 w)⟩
        (block_div (w2 w)) (block_div (w3 w)))
    match a with
    | ⟨0, _⟩ => exact Fin.ext (show b.val * 1 + (w 0).val - 0 = b.val by have := w0 w; omega)
    | ⟨1, _⟩ => exact Fin.ext (show c.val * 1 + (w 1).val - 0 = c.val by have := w1 w; omega)
    | ⟨2, _⟩ => exact Fin.ext (show i.val * k + (w 2).val - 0 = i.val * k + (w 2).val by omega)
    | ⟨3, _⟩ => exact Fin.ext (show j.val * k + (w 3).val - 0 = j.val * k + (w 3).val by omega)

end Cert.PoolTile.Ref
-- ==== Proof.RefPool.lean ====
/-
  The reference's four window reductions are max-poolings.

  Each of them reduces by `max` over windows `[1, 1, k, k]` at strides `[1, 1, k, k]` without padding, from an initial
  value that is a rank-zero broadcast of the f32 pattern `0xFF800000`, which denotes `⊥` in the extended reals. The
  general statement about such a reduction is `reduceWindow_isPool`; here it is read at the four literal shapes, with
  `k = 2, 4, 8, 16`.
-/
import proofs.«136280_j69715909149112_1_alg».proof.Proof.PoolSpec
import proofs.«136280_j69715909149112_1_alg».proof.Proof.LibWindowMax
import proofs.«136280_j69715909149112_1_alg».proof.Proof.Gen.ReferenceIdeal.Read

namespace Cert.PoolTile.Ref

open Idealize.ShloMosaic Idealize.ShloMosaic.ValueIdx Cert.ReferenceIdeal Cert.ReferenceIdeal.Gen Cert.ReferenceIdeal.Read

/-- The f32 pattern `0xFF800000` (minus infinity) denotes `⊥`. -/
theorem ofBits_neg_inf_f32 : Ideal.ofBits .f32 0xFF800000#32 = ⊥ := by simp [Ideal.ofBits, Ideal.ieee]

/-- The initial value of the first window reduction is `⊥`. -/
theorem v0_first : val_main_v0 (F := Ideal) (Shape.Idx.first h_S_) = ⊥ := by
  rw [val_main_v0_apply, val_main_cst_apply]; exact ofBits_neg_inf_f32

/-- The initial value of the second window reduction is `⊥`. -/
theorem v5_first : val_main_v5 (F := Ideal) (Shape.Idx.first h_S_) = ⊥ := by
  rw [val_main_v5_apply, val_main_cst_0_apply]; exact ofBits_neg_inf_f32

/-- The initial value of the third window reduction is `⊥`. -/
theorem v10_first : val_main_v10 (F := Ideal) (Shape.Idx.first h_S_) = ⊥ := by
  rw [val_main_v10_apply, val_main_cst_1_apply]; exact ofBits_neg_inf_f32

/-- The initial value of the fourth window reduction is `⊥`. -/
theorem v15_first : val_main_v15 (F := Ideal) (Shape.Idx.first h_S_) = ⊥ := by
  rw [val_main_v15_apply, val_main_cst_2_apply]; exact ofBits_neg_inf_f32

/-- The first window reduction is the 2-by-2 max-pooling of its operand. -/
theorem pool_v1 (x0 : (⟨4, ![2, 16384, 32, 32]⟩ : Shape).Idx → EReal) :
    Cert.PoolTile.IsPool 2 x0 (Cert.ReferenceIdeal.Read.val_main_v1 (F := Ideal) x0) := by
  intro b c i j z
  unfold Cert.ReferenceIdeal.Read.val_main_v1
  exact reduceWindow_isPool (B := 2) (C := 16384) (H := 32) (W := 32) (Hk := 16) (Wk := 16) (k := 2)
    (φ := .f32) (by decide) rfl rfl x0 (val_main_v0 (F := Ideal)) reduceWindows_S2x16384x32x32_S2x16384x16x16_w1s1p0_0_w1s1p0_0_w2s2p0_0_w2s2p0_0 h_S_ v0_first b c i j z

/-- The second window reduction is the 4-by-4 max-pooling of its operand. -/
theorem pool_v6 (x1 : (⟨4, ![2, 4096, 64, 64]⟩ : Shape).Idx → EReal) :
    Cert.PoolTile.IsPool 4 x1 (Cert.ReferenceIdeal.Read.val_main_v6 (F := Ideal) x1) := by
  intro b c i j z
  unfold Cert.ReferenceIdeal.Read.val_main_v6
  exact reduceWindow_isPool (B := 2) (C := 4096) (H := 64) (W := 64) (Hk := 16) (Wk := 16) (k := 4)
    (φ := .f32) (by decide) rfl rfl x1 (val_main_v5 (F := Ideal)) reduceWindows_S2x4096x64x64_S2x4096x16x16_w1s1p0_0_w1s1p0_0_w4s4p0_0_w4s4p0_0 h_S_ v5_first b c i j z

/-- The third window reduction is the 8-by-8 max-pooling of its operand. -/
theorem pool_v11 (x2 : (⟨4, ![2, 256, 128, 128]⟩ : Shape).Idx → EReal) :
    Cert.PoolTile.IsPool 8 x2 (Cert.ReferenceIdeal.Read.val_main_v11 (F := Ideal) x2) := by
  intro b c i j z
  unfold Cert.ReferenceIdeal.Read.val_main_v11
  exact reduceWindow_isPool (B := 2) (C := 256) (H := 128) (W := 128) (Hk := 16) (Wk := 16) (k := 8)
    (φ := .f32) (by decide) rfl rfl x2 (val_main_v10 (F := Ideal)) reduceWindows_S2x256x128x128_S2x256x16x16_w1s1p0_0_w1s1p0_0_w8s8p0_0_w8s8p0_0 h_S_ v10_first b c i j z

/-- The fourth window reduction is the 16-by-16 max-pooling of its operand. -/
theorem pool_v16 (x3 : (⟨4, ![2, 1, 256, 256]⟩ : Shape).Idx → EReal) :
    Cert.PoolTile.IsPool 16 x3 (Cert.ReferenceIdeal.Read.val_main_v16 (F := Ideal) x3) := by
  intro b c i j z
  unfold Cert.ReferenceIdeal.Read.val_main_v16
  exact reduceWindow_isPool (B := 2) (C := 1) (H := 256) (W := 256) (Hk := 16) (Wk := 16) (k := 16)
    (φ := .f32) (by decide) rfl rfl x3 (val_main_v15 (F := Ideal)) reduceWindows_S2x1x256x256_S2x1x16x16_w1s1p0_0_w1s1p0_0_w16s16p0_0_w16s16p0_0 h_S_ v15_first b c i j z

end Cert.PoolTile.Ref
-- ==== Proof.LibTileChannels.lean ====
/-
  TILING AN ARRAY ALONG ITS CHANNEL AXIS, READ AT AN INDEX.

  `jnp.tile(y, (1, R, 1, 1))` of an array `y` over [B, C, H, W] lowers to three layout operations: a reshape to
  [1, B, 1, C, 1, H, 1, W] (a unit axis in front of every axis), a `broadcast_in_dim` along the eight axes to
  [1, B, R, C, 1, H, 1, W] (the unit axis in front of the channels repeated R times), and a reshape to [B, R * C, H, W].
  In row-major order the repeat index is OUTSIDE the channel: channel `c` of the result is repeat `c / C` of channel
  `c % C`, so the result at [b, c, i, j] is `y` at [b, c % C, i, j] (`tileChannels_apply`).

  The three steps are also stated one at a time, each reading one layout operation at an index named by coordinates:
  `shapeCast_merge_apply` (the last reshape, read at [b, c, i, j], is its operand at [0, b, c / C, c % C, 0, i, 0, j]),
  `broadcastInDim_repeat_apply` (the broadcast forgets the repeat coordinate) and `shapeCast_units_apply` (the first
  reshape, read at any rank-8 index, is its operand at the four coordinates off the unit axes). Under them: `ix8` builds
  a rank-8 index from its coordinates, `eq_ix8` says every rank-8 index is of that form, and `rowMajor_val_eight` spells
  a rank-8 row-major position as one sum of products (rank 8 of the library's `ix0` … `ix5` and
  `Shape.rowMajor_val_one` … `rowMajor_val_five`).
-/
import Idealize.ShloMosaic.Lib.Pipeline.Value
import Idealize.ShloMosaic.Lib.ValueIdx

namespace Cert.TileChannels

open Idealize.ShloMosaic Idealize.ShloMosaic.ValueIdx

/-- Rank 8: the row-major position as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5
          + (i 5).val) * d 6 + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- A rank-8 index from its coordinates. -/
abbrev ix8 {n0 n1 n2 n3 n4 n5 n6 n7 : Nat} (a0 : Fin n0) (a1 : Fin n1) (a2 : Fin n2) (a3 : Fin n3) (a4 : Fin n4)
    (a5 : Fin n5) (a6 : Fin n6) (a7 : Fin n7) : (⟨8, ![n0, n1, n2, n3, n4, n5, n6, n7]⟩ : Shape).Idx :=
  fun g => match g with
    | ⟨0, _⟩ => a0 | ⟨1, _⟩ => a1 | ⟨2, _⟩ => a2 | ⟨3, _⟩ => a3 | ⟨4, _⟩ => a4 | ⟨5, _⟩ => a5 | ⟨6, _⟩ => a6 | ⟨7, _⟩ => a7

/-- Every rank-8 index is `ix8` of its coordinates. -/
theorem eq_ix8 {n0 n1 n2 n3 n4 n5 n6 n7 : Nat} (j : (⟨8, ![n0, n1, n2, n3, n4, n5, n6, n7]⟩ : Shape).Idx) :
    j = ix8 (j 0) (j 1) (j 2) (j 3) (j 4) (j 5) (j 6) (j 7) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-! ## The three layout operations of a channel tiling, one at a time -/

section
variable {α : Type}

/-- THE LAST RESHAPE. [1, B, R, C, 1, H, 1, W] read as [B, N, H, W] with `N = R * C`: the entry at [b, c, i, j] is the
    operand's at [0, b, c / C, c % C, 0, i, 0, j] — the repeat coordinate `r` is the quotient of the channel by `C`, the
    operand's channel `c'` the remainder (the caller names both, with their bounds). -/
theorem shapeCast_merge_apply {B R C N H W : Nat} (hN : N = R * C)
    (x : (⟨8, ![1, B, R, C, 1, H, 1, W]⟩ : Shape).Idx → α)
    (h : (⟨8, ![1, B, R, C, 1, H, 1, W]⟩ : Shape).ShapeCasts ⟨4, ![B, N, H, W]⟩)
    (b : Fin B) (c : Fin N) (i : Fin H) (j : Fin W) (r : Fin R) (c' : Fin C)
    (hr : r.val = c.val / C) (hc : c'.val = c.val % C) :
    shapeCast ⟨4, ![B, N, H, W]⟩ x h (ix4 b c i j) = x (ix8 (0 : Fin 1) b r c' (0 : Fin 1) i (0 : Fin 1) j) := by
  refine shapeCast_apply x h _ _ ?_
  rw [rowMajor_val_eight, Shape.rowMajor_val_four]
  show ((((((0 * B + b.val) * R + r.val) * C + c'.val) * 1 + 0) * H + i.val) * 1 + 0) * W + j.val
      = ((b.val * N + c.val) * H + i.val) * W + j.val
  have key : (b.val * R + r.val) * C + c'.val = b.val * N + c.val := by
    have e := Nat.div_add_mod' c.val C
    rw [← hr, ← hc] at e
    rw [Nat.add_mul, Nat.mul_assoc, Nat.add_assoc, e, ← hN]
  simp only [Nat.zero_mul, Nat.zero_add, Nat.mul_one, Nat.add_zero, key]

/-- THE BROADCAST along the eight axes from [1, B, 1, C, 1, H, 1, W] to [1, B, R, C, 1, H, 1, W] forgets the repeat
    coordinate (`dims` is the identity on the eight axes, `hd`). -/
theorem broadcastInDim_repeat_apply {B R C H W : Nat} (dims : Fin 8 → Fin 8) (hd : ∀ a, dims a = a)
    (h : (⟨8, ![1, B, 1, C, 1, H, 1, W]⟩ : Shape).BroadcastsInDim ⟨8, ![1, B, R, C, 1, H, 1, W]⟩ dims)
    (y : (⟨8, ![1, B, 1, C, 1, H, 1, W]⟩ : Shape).Idx → α)
    (u0 : Fin 1) (b : Fin B) (r : Fin R) (c : Fin C) (u4 : Fin 1) (i : Fin H) (u6 : Fin 1) (j : Fin W) :
    broadcastInDim ⟨8, ![1, B, R, C, 1, H, 1, W]⟩ dims h y (ix8 u0 b r c u4 i u6 j)
      = y (ix8 (0 : Fin 1) b (0 : Fin 1) c (0 : Fin 1) i (0 : Fin 1) j) := by
  refine broadcastInDim_apply (s := ⟨8, ![1, B, 1, C, 1, H, 1, W]⟩) (t := ⟨8, ![1, B, R, C, 1, H, 1, W]⟩) dims h y _ _ fun a => ?_
  rw [hd a]
  match a with
  | ⟨0, _⟩ => exact (if_pos rfl).symm
  | ⟨1, _⟩ =>
    show b.val = if B = 1 then 0 else b.val
    have := b.isLt
    split <;> omega
  | ⟨2, _⟩ => exact (if_pos rfl).symm
  | ⟨3, _⟩ =>
    show c.val = if C = 1 then 0 else c.val
    have := c.isLt
    split <;> omega
  | ⟨4, _⟩ => exact (if_pos rfl).symm
  | ⟨5, _⟩ =>
    show i.val = if H = 1 then 0 else i.val
    have := i.isLt
    split <;> omega
  | ⟨6, _⟩ => exact (if_pos rfl).symm
  | ⟨7, _⟩ =>
    show j.val = if W = 1 then 0 else j.val
    have := j.isLt
    split <;> omega

/-- THE FIRST RESHAPE. [B, C, H, W] read as [1, B, 1, C, 1, H, 1, W] at any index `k`: the operand at `k`'s four
    coordinates off the unit axes (the caller names them). -/
theorem shapeCast_units_apply {B C H W : Nat} (y : (⟨4, ![B, C, H, W]⟩ : Shape).Idx → α)
    (h : (⟨4, ![B, C, H, W]⟩ : Shape).ShapeCasts ⟨8, ![1, B, 1, C, 1, H, 1, W]⟩)
    (k : (⟨8, ![1, B, 1, C, 1, H, 1, W]⟩ : Shape).Idx) (b : Fin B) (c : Fin C) (i : Fin H) (j : Fin W)
    (hb : (k 1).val = b.val) (hc : (k 3).val = c.val) (hi : (k 5).val = i.val) (hj : (k 7).val = j.val) :
    shapeCast ⟨8, ![1, B, 1, C, 1, H, 1, W]⟩ y h k = y (ix4 b c i j) := by
  refine shapeCast_apply y h k _ ?_
  rw [rowMajor_val_eight, Shape.rowMajor_val_four]
  have h0 : (k 0).val = 0 := by have := (k 0).isLt; change _ < 1 at this; omega
  have h2 : (k 2).val = 0 := by have := (k 2).isLt; change _ < 1 at this; omega
  have h4 : (k 4).val = 0 := by have := (k 4).isLt; change _ < 1 at this; omega
  have h6 : (k 6).val = 0 := by have := (k 6).isLt; change _ < 1 at this; omega
  show ((b.val * C + c.val) * H + i.val) * W + j.val
      = (((((((k 0).val * B + (k 1).val) * 1 + (k 2).val) * C + (k 3).val) * 1 + (k 4).val) * H + (k 5).val) * 1
          + (k 6).val) * W + (k 7).val
  rw [h0, h2, h4, h6, hb, hc, hi, hj]
  simp only [Nat.zero_mul, Nat.zero_add, Nat.mul_one, Nat.add_zero]

/-! ## The tiling -/

/-- THE TILING READ AT AN INDEX. The reshape of `y` over [B, C, H, W] to [1, B, 1, C, 1, H, 1, W], broadcast to
    [1, B, R, C, 1, H, 1, W] and reshaped to [B, N, H, W] with `N = R * C`, read at [b, c, i, j], is `y` at
    [b, c % C, i, j] (the caller names the channel `c'` with `c' = c % C`). -/
theorem tileChannels_apply {B R C N H W : Nat} (hN : N = R * C) (dims : Fin 8 → Fin 8) (hd : ∀ a, dims a = a)
    (y : (⟨4, ![B, C, H, W]⟩ : Shape).Idx → α)
    (h1 : (⟨4, ![B, C, H, W]⟩ : Shape).ShapeCasts ⟨8, ![1, B, 1, C, 1, H, 1, W]⟩)
    (hb : (⟨8, ![1, B, 1, C, 1, H, 1, W]⟩ : Shape).BroadcastsInDim ⟨8, ![1, B, R, C, 1, H, 1, W]⟩ dims)
    (h2 : (⟨8, ![1, B, R, C, 1, H, 1, W]⟩ : Shape).ShapeCasts ⟨4, ![B, N, H, W]⟩)
    (b : Fin B) (c : Fin N) (i : Fin H) (j : Fin W) (c' : Fin C) (hc : c'.val = c.val % C) :
    shapeCast ⟨4, ![B, N, H, W]⟩
        (broadcastInDim ⟨8, ![1, B, R, C, 1, H, 1, W]⟩ dims hb (shapeCast ⟨8, ![1, B, 1, C, 1, H, 1, W]⟩ y h1)) h2
        (ix4 b c i j)
      = y (ix4 b c' i j) := by
  have hC : 0 < C := Nat.pos_of_ne_zero fun h0 => by have := c'.isLt; omega
  have hr : c.val / C < R := by
    have h3 : c.val < C * R := by have := c.isLt; rw [Nat.mul_comm C R]; omega
    exact Nat.div_lt_of_lt_mul h3
  rw [shapeCast_merge_apply hN _ h2 b c i j ⟨c.val / C, hr⟩ c' rfl hc,
    broadcastInDim_repeat_apply dims hd hb]
  exact shapeCast_units_apply y h1 _ b c' i j rfl rfl rfl rfl

end

end Cert.TileChannels
-- ==== Proof.RefTile.lean ====
/-
  The reference program's result, entry by entry: the relu of the five-term sum of its four pooled stages, each tiled
  along the channel axis up to 32768 channels, and the fifth input — `combine` of the four stages.

  Each tiling is printed as a reshape to rank 8 (a unit axis in front of every axis), a broadcast of the unit axis in
  front of the channels, and a reshape back to rank 4; in row-major order the repeat index is outside the channel, so
  channel `c` of a tiled stage reads channel `c mod C` of the stage (`Cert.TileChannels.tileChannels_apply`). The four
  pooled stages themselves are never opened here: they stay the names the generated reading gives them.
-/
import proofs.«136280_j69715909149112_1_alg».proof.Proof.PoolSpec
import proofs.«136280_j69715909149112_1_alg».proof.Proof.Gen.ReferenceIdeal.Read
import proofs.«136280_j69715909149112_1_alg».proof.Proof.LibTileChannels
import Idealize.ShloMosaic.PureOps.Ideal.Laws

noncomputable section

namespace Cert.PoolTile.Ref

open Idealize.ShloMosaic Idealize.ShloMosaic.ValueIdx Cert.ReferenceIdeal Cert.ReferenceIdeal.Read Cert.TileChannels

/-- The first stage tiled twice: channel `c` reads channel `c mod 16384`. -/
theorem v4_apply (x0 : (⟨4, ![2, 16384, 32, 32]⟩ : Shape).Idx → EReal) (b : Fin 2) (c : Fin 32768) (i j : Fin 16) :
    val_main_v4 (F := Ideal) x0 (ix4 b c i j)
      = val_main_v1 (F := Ideal) x0 (ix4 b ⟨c.val % 16384, Nat.mod_lt _ (by decide)⟩ i j) := by
  unfold val_main_v4 val_main_v3 val_main_v2
  generalize val_main_v1 (F := Ideal) x0 = y
  exact tileChannels_apply (R := 2) (C := 16384) rfl _ (fun a => by decide +revert) y _ _ _ b c i j _ rfl

/-- The second stage tiled eight times: channel `c` reads channel `c mod 4096`. -/
theorem v9_apply (x1 : (⟨4, ![2, 4096, 64, 64]⟩ : Shape).Idx → EReal) (b : Fin 2) (c : Fin 32768) (i j : Fin 16) :
    val_main_v9 (F := Ideal) x1 (ix4 b c i j)
      = val_main_v6 (F := Ideal) x1 (ix4 b ⟨c.val % 4096, Nat.mod_lt _ (by decide)⟩ i j) := by
  unfold val_main_v9 val_main_v8 val_main_v7
  generalize val_main_v6 (F := Ideal) x1 = y
  exact tileChannels_apply (R := 8) (C := 4096) rfl _ (fun a => by decide +revert) y _ _ _ b c i j _ rfl

/-- The third stage tiled 128 times: channel `c` reads channel `c mod 256`. -/
theorem v14_apply (x2 : (⟨4, ![2, 256, 128, 128]⟩ : Shape).Idx → EReal) (b : Fin 2) (c : Fin 32768) (i j : Fin 16) :
    val_main_v14 (F := Ideal) x2 (ix4 b c i j)
      = val_main_v11 (F := Ideal) x2 (ix4 b ⟨c.val % 256, Nat.mod_lt _ (by decide)⟩ i j) := by
  unfold val_main_v14 val_main_v13 val_main_v12
  generalize val_main_v11 (F := Ideal) x2 = y
  exact tileChannels_apply (R := 128) (C := 256) rfl _ (fun a => by decide +revert) y _ _ _ b c i j _ rfl

/-- The fourth stage, of one channel, tiled 32768 times: every channel reads channel `0` (`c mod 1`). -/
theorem v19_apply (x3 : (⟨4, ![2, 1, 256, 256]⟩ : Shape).Idx → EReal) (b : Fin 2) (c : Fin 32768) (i j : Fin 16) :
    val_main_v19 (F := Ideal) x3 (ix4 b c i j) = val_main_v16 (F := Ideal) x3 (ix4 b (0 : Fin 1) i j) := by
  unfold val_main_v19 val_main_v18 val_main_v17
  generalize val_main_v16 (F := Ideal) x3 = y
  exact tileChannels_apply (R := 32768) (C := 1) rfl _ (fun a => by decide +revert) y _ _ _ b c i j _ (Nat.mod_one _).symm

/-- THE REFERENCE'S RESULT is `combine` of its four pooled stages and the fifth input. -/
theorem ref_combine (x0 : (⟨4, ![2, 16384, 32, 32]⟩ : Shape).Idx → EReal) (x1 : (⟨4, ![2, 4096, 64, 64]⟩ : Shape).Idx → EReal)
    (x2 : (⟨4, ![2, 256, 128, 128]⟩ : Shape).Idx → EReal) (x3 : (⟨4, ![2, 1, 256, 256]⟩ : Shape).Idx → EReal)
    (x4 : (⟨4, ![2, 32768, 16, 16]⟩ : Shape).Idx → EReal) :
    Cert.ReferenceIdeal.Read.val_main_v24 (F := Ideal) x0 x1 x2 x3 x4
      = Cert.PoolTile.combine (Cert.ReferenceIdeal.Read.val_main_v1 (F := Ideal) x0)
          (Cert.ReferenceIdeal.Read.val_main_v6 (F := Ideal) x1) (Cert.ReferenceIdeal.Read.val_main_v11 (F := Ideal) x2)
          (Cert.ReferenceIdeal.Read.val_main_v16 (F := Ideal) x3) x4 := by
  funext idx
  obtain ⟨b, c, i, j, rfl⟩ : ∃ (b : Fin 2) (c : Fin 32768) (i j : Fin 16), idx = ix4 b c i j :=
    ⟨_, _, _, _, eq_ix4 idx⟩
  rw [combine_apply, val_main_v24_apply, val_main_v23_apply, val_main_v22_apply, val_main_v21_apply, val_main_v20_apply,
    val_main_call0_v0_apply, val_main_call0_cst_apply, v4_apply, v9_apply, v14_apply, v19_apply,
    Ideal.ofBits_def, Ideal.ofBits_zero_f32, Ideal.maximumf_def, Ideal.addf_def, Ideal.addf_def, Ideal.addf_def,
    Ideal.addf_def]

end Cert.PoolTile.Ref

end
-- ==== Proof.lean ====
/- The five claims of this certificate.

   The kernel program max-pools four NCHW arrays (windows 2, 4, 8 and 16, stride equal to the window) down to
   16-by-16 images in four pallas_calls, and a fifth call tiles the pooled arrays along the channel axis up to
   32768 channels through its index maps, adds them and a fifth array in a fixed order and takes the maximum with
   zero. The reference pools with reduce_window from -∞, tiles by reshape / broadcast / reshape, adds in the same
   order and applies the same maximum with zero.

   Frames: both kernel programs' are the generated frame certificates; the reference's is its generated run with the
   result dropped. No operation was rewritten by the ideal pass, so `preserves` is `True`.

   Equal results at the extended reals: a pooled entry is characterised by its upper bounds — it is below `z` exactly
   when every entry of its window is — and the extended reals are a partial order, so the kernel's two successive
   maxima (columns, then rows) and the reference's single fold over the window give one array
   (Proof/PoolSpec.lean `IsPool.unique`, used through Proof/KernelValue.lean `result`, which takes ANY arrays with
   the pooling property: here the reference's own stages, Proof/RefPool.lean). The tiling is the identity
   (1024·n + r) mod C = 1024·(n mod (C/1024)) + r on the kernel's side (Proof/CombineBlocks.lean) and the row-major
   arithmetic of the rank-8 reshapes on the reference's (Proof/RefTile.lean); the sums are associated alike. Neither
   side needs the inputs finite: only max, +, and their order are used. -/
import proofs.«136280_j69715909149112_1_alg».proof.Defs
import proofs.«136280_j69715909149112_1_alg».proof.Proof.Gen.Kernel
import proofs.«136280_j69715909149112_1_alg».proof.Proof.Gen.Kernel.Frame
import proofs.«136280_j69715909149112_1_alg».proof.Proof.Gen.KernelIdeal
import proofs.«136280_j69715909149112_1_alg».proof.Proof.Gen.KernelIdeal.Frame
import proofs.«136280_j69715909149112_1_alg».proof.Proof.Gen.ReferenceIdeal
import proofs.«136280_j69715909149112_1_alg».proof.Proof.Gen.ReferenceIdeal.Run
import proofs.«136280_j69715909149112_1_alg».proof.Proof.Gen.ReferenceIdeal.Read
import proofs.«136280_j69715909149112_1_alg».proof.Proof.Gen.Pre_finite_inputs
import proofs.«136280_j69715909149112_1_alg».proof.Proof.KernelValue
import proofs.«136280_j69715909149112_1_alg».proof.Proof.RefPool
import proofs.«136280_j69715909149112_1_alg».proof.Proof.RefTile
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the reference's last stage of the arguments: the reference by its run, the
    kernel because that stage is `combine` of the reference's pooled stages, which are poolings of the arguments. -/
theorem algebraic : Cert.algebraic_KernelIdeal_ReferenceIdeal := by
  intro m ρ m' ρ' _ hagree
  refine ⟨fun c => Cert.ReferenceIdeal.Read.val_main_v24 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.Run.run m ρ)
    refine Eq.trans ?_ (Cert.PoolTile.Ref.ref_combine _ _ _ _ _).symm
    exact Cert.KernelIdeal.Run.result m ρ c _ _ _ _ (Cert.PoolTile.Ref.pool_v1 _) (Cert.PoolTile.Ref.pool_v6 _)
      (Cert.PoolTile.Ref.pool_v11 _) (Cert.PoolTile.Ref.pool_v16 _)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact Cert.ReferenceIdeal.Read.val_main_v24_eq _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
